-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S10000x128 : Shape := ⟨2, ![10000, 128]⟩
abbrev S10000x64 : Shape := ⟨2, ![10000, 64]⟩
abbrev S850000x64 : Shape := ⟨2, ![850000, 64]⟩
abbrev S1x64 : Shape := ⟨2, ![1, 64]⟩

abbrev nBuf : Space → Nat
  | .hbm => 141
  | .vmem => 30
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S50000, .i32⟩
  | 14 => ⟨S850000, .i32⟩
  | 15 => ⟨S850000, .i32⟩
  | 16 => ⟨S_, .f32⟩
  | 17 => ⟨S50000, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .f32⟩
  | 51 => ⟨S800000, .f32⟩
  | 52 => ⟨S850000, .f32⟩
  | 53 => ⟨S_, .f32⟩
  | 54 => ⟨S50000, .f32⟩
  | 55 => ⟨S850000x1, .i32⟩
  | 56 => ⟨S50000, .f32⟩
  | 57 => ⟨S_, .f32⟩
  | 58 => ⟨S50000, .f32⟩
  | 59 => ⟨S50000, .i1⟩
  | 60 => ⟨S50000, .f32⟩
  | 61 => ⟨S_, .f32⟩
  | 62 => ⟨S50000, .f32⟩
  | 63 => ⟨S50000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000, .f32⟩
  | 73 => ⟨S850000, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000, .f32⟩
  | 83 => ⟨S850000, .f32⟩
  | 84 => ⟨S50000x64, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000x64, .f32⟩
  | 94 => ⟨S850000x1, .f32⟩
  | 95 => ⟨S850000x64, .f32⟩
  | 96 => ⟨S850000x64, .f32⟩
  | 97 => ⟨S_, .f32⟩
  | 98 => ⟨S50000x64, .f32⟩
  | 99 => ⟨S850000x1, .i32⟩
  | 100 => ⟨S50000x64, .f32⟩
  | 101 => ⟨S1x64, .f32⟩
  | 102 => ⟨S50000x64, .f32⟩
  | 103 => ⟨S50000x64, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x64, .f32⟩
  | 113 => ⟨S850000x1, .f32⟩
  | 114 => ⟨S850000x64, .f32⟩
  | 115 => ⟨S850000x64, .f32⟩
  | 116 => ⟨S_, .f32⟩
  | 117 => ⟨S50000x64, .f32⟩
  | 118 => ⟨S850000x1, .i32⟩
  | 119 => ⟨S50000x64, .f32⟩
  | 120 => ⟨S1x64, .f32⟩
  | 121 => ⟨S50000x64, .f32⟩
  | 122 => ⟨S50000x64, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000x64, .f32⟩
  | 4 => ⟨S850000x1, .f32⟩
  | 5 => ⟨S850000x64, .f32⟩
  | 6 => ⟨S850000x64, .f32⟩
  | 7 => ⟨S_, .f32⟩
  | 8 => ⟨S50000x64, .f32⟩
  | 9 => ⟨S850000x1, .i32⟩
  | 10 => ⟨S50000x64, .f32⟩
  | 11 => ⟨S1x64, .f32⟩
  | 12 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_12 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_14 : Ref sig .tc := ⟨.hbm, 85, rfl⟩
abbrev main_v60 : Ref sig .tc := ⟨.hbm, 86, rfl⟩
abbrev main_v61 : Ref sig .tc := ⟨.hbm, 87, rfl⟩
abbrev main_c_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_17 : Ref sig .tc := ⟨.hbm, 104, rfl⟩
abbrev main_v76 : Ref sig .tc := ⟨.hbm, 105, rfl⟩
abbrev main_v77 : Ref sig .tc := ⟨.hbm, 106, rfl⟩
abbrev main_c_18 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_19 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_20 : Ref sig .tc := ⟨.hbm, 123, rfl⟩
abbrev main_v92 : Ref sig .tc := ⟨.hbm, 124, rfl⟩
abbrev main_v93 : Ref sig .tc := ⟨.hbm, 125, rfl⟩
abbrev main_c_21 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_22 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S_S800000 : S_.BroadcastsInDim S800000 (![] : Fin 0 → Fin S800000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S50000x64.size a
  hwx4_2 : ∀ i : grid4.Coords, EltTy.bits .f32 = 32 ∨ (Rect.block (s := S50000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S50000x64.size a
  hwx5_2 : ∀ i : grid5.Coords, EltTy.bits .f32 = 32 ∨ (Rect.block (s := S50000x64) S10000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v59) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v72) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v74) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v88) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v90) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v104) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v105) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v106) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 192
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S50000, .i32⟩
  | 14 => ⟨S850000, .i32⟩
  | 15 => ⟨S850000, .i32⟩
  | 16 => ⟨S_, .f32⟩
  | 17 => ⟨S50000, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x64, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x64, .f32⟩
  | 60 => ⟨S850000x1, .f32⟩
  | 61 => ⟨S850000x64, .f32⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S50000, .i32⟩
  | 74 => ⟨S850000, .i32⟩
  | 75 => ⟨S850000, .i32⟩
  | 76 => ⟨S_, .f32⟩
  | 77 => ⟨S50000, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S50000x64, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x64, .f32⟩
  | 120 => ⟨S850000x1, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S_, .f32⟩
  | 3 => ⟨S50000x64, .f32⟩
  | 4 => ⟨S50000x64, .f32⟩
  | 5 => ⟨S_, .f32⟩
  | 6 => ⟨S800000, .f32⟩
  | 7 => ⟨S50000, .i32⟩
  | 8 => ⟨S850000, .i32⟩
  | 9 => ⟨S850000, .i32⟩
  | 10 => ⟨S_, .f32⟩
  | 11 => ⟨S50000, .f32⟩
  | 12 => ⟨S850000, .f32⟩
  | 13 => ⟨S_, .f32⟩
  | 14 => ⟨S50000, .f32⟩
  | 15 => ⟨S850000x1, .i32⟩
  | 16 => ⟨S50000, .f32⟩
  | 17 => ⟨S_, .f32⟩
  | 18 => ⟨S50000, .f32⟩
  | 19 => ⟨S50000, .i1⟩
  | 20 => ⟨S50000, .f32⟩
  | 21 => ⟨S_, .f32⟩
  | 22 => ⟨S50000, .f32⟩
  | 23 => ⟨S50000, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000, .f32⟩
  | 33 => ⟨S850000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S50000x64, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x64, .f32⟩
  | 54 => ⟨S850000x1, .f32⟩
  | 55 => ⟨S850000x64, .f32⟩
  | 56 => ⟨S850000x64, .f32⟩
  | 57 => ⟨S_, .f32⟩
  | 58 => ⟨S50000x64, .f32⟩
  | 59 => ⟨S850000x1, .i32⟩
  | 60 => ⟨S50000x64, .f32⟩
  | 61 => ⟨S1x64, .f32⟩
  | 62 => ⟨S50000x64, .f32⟩
  | 63 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_17 : Ref sig .tc := ⟨.hbm, 111, rfl⟩
abbrev main_v81 : Ref sig .tc := ⟨.hbm, 112, rfl⟩
abbrev main_v82 : Ref sig .tc := ⟨.hbm, 113, rfl⟩
abbrev main_c_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_19 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call3_cst : Ref sig .tc := ⟨.hbm, 130, rfl⟩
abbrev main_call3_v0 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_21 : Ref sig .tc := ⟨.hbm, 138, rfl⟩
abbrev main_v102 : Ref sig .tc := ⟨.hbm, 139, rfl⟩
abbrev main_v103 : Ref sig .tc := ⟨.hbm, 140, rfl⟩
abbrev main_cst_22 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_23 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_24 : Ref sig .tc := ⟨.hbm, 149, rfl⟩
abbrev main_v110 : Ref sig .tc := ⟨.hbm, 150, rfl⟩
abbrev main_v111 : Ref sig .tc := ⟨.hbm, 151, rfl⟩
abbrev main_c_25 : Ref sig .tc := ⟨.hbm, 152, rfl⟩
abbrev main_v112 : Ref sig .tc := ⟨.hbm, 153, rfl⟩
abbrev main_v113 : Ref sig .tc := ⟨.hbm, 154, rfl⟩
abbrev main_c_26 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_27 : Ref sig .tc := ⟨.hbm, 162, rfl⟩
abbrev main_v120 : Ref sig .tc := ⟨.hbm, 163, rfl⟩
abbrev main_v121 : Ref sig .tc := ⟨.hbm, 164, rfl⟩
abbrev main_c_28 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_c_29 : Ref sig .tc := ⟨.hbm, 173, rfl⟩
abbrev main_v129 : Ref sig .tc := ⟨.hbm, 174, rfl⟩
abbrev main_v130 : Ref sig .tc := ⟨.hbm, 175, rfl⟩
abbrev main_c_30 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_31 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The three-layer graph convolution as one function of the nine arguments, in the host's vocabulary.

  Nodes 0 … 49999, an edge list of 800000 (source, target) pairs with weights, to which every node's self-loop of
  weight one is appended (850000 entries).  The degree of a node is the sum of the weights of the entries that target
  it; an entry (s, t, w) is normalised to dinv(s) · w · dinv(t) with dinv = 1/sqrt(degree) where the degree is positive
  and 0 elsewhere.  A layer multiplies the node features by its weight matrix, sends row s of the product, scaled by
  the entry's normalised weight, along every entry to its target t where the contributions are added, adds the bias
  row, and (the first two layers) takes the maximum with zero.  The last layer uses unit edge weights.
  A negative index is first shifted by the number of nodes, as array indexing does.
-/
import proofs.«139161_j17952963297475_1_alg».proof.Proof.Gen.ReferenceIdeal

noncomputable section

namespace Cert.Gcn

open Cert.ReferenceIdeal Cert.ReferenceIdeal.Gen Idealize.ShloMosaic

variable {F : FTy → Type} [FloatOps F]

/-- An edge-list row followed by the nodes' own numbers: the self-loops. -/
def selfLoops (e : IVec S800000 32) : IVec S850000 32 :=
  concatenate S850000 0 [⟨S800000, e⟩, ⟨S50000, iotaInDim S50000 32 0⟩] concatenates_S800000_S50000_S850000_d0

/-- The entries' sources. -/
def srcs (x1 : IVec S2x800000 32) : IVec S850000 32 :=
  selfLoops (shapeCast _ (extractStridedSlice S1x800000 ![0, 0] x1 slices_S2x800000_S1x800000_0_0) shapeCasts_S1x800000_S800000)

/-- The entries' targets. -/
def dsts (x1 : IVec S2x800000 32) : IVec S850000 32 :=
  selfLoops (shapeCast _ (extractStridedSlice S1x800000 ![1, 0] x1 slices_S2x800000_S1x800000_1_0) shapeCasts_S1x800000_S800000)

/-- Node numbers as a column of scatter indices. -/
def col (ix : IVec S850000 32) : IVec S850000x1 32 := broadcastInDim S850000x1 ![0] bcast_S850000_S850000x1_0 ix

/-- Node numbers as a column of gather indices: a negative number is shifted by the number of nodes first. -/
def wrapCol (ix : IVec S850000 32) : IVec S850000x1 32 :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- Weight one on every node's self-loop. -/
def ones50k : FVec F S50000 .f32 := broadcastInDim S50000 ![] bcast_S_S50000 (constant S_ .f32 0x3F800000#32)

/-- Weight one on every edge. -/
def ones800k : FVec F S800000 .f32 := broadcastInDim S800000 ![] bcast_S_S800000 (constant S_ .f32 0x3F800000#32)

/-- Edge weights followed by the self-loops' weights. -/
def weightsWith (e : FVec F S800000 .f32) (o : FVec F S50000 .f32) : FVec F S850000 .f32 :=
  concatenate S850000 0 [⟨S800000, e⟩, ⟨S50000, o⟩] concatenates_S800000_S50000_S850000_d0

/-- Edge weights followed by the self-loops' weight one. -/
def weights (x2 : FVec F S800000 .f32) : FVec F S850000 .f32 := weightsWith x2 ones50k

/-- Unit weights on every entry. -/
def unitWeights : FVec F S850000 .f32 := weightsWith ones800k ones50k

/-- Zero at every node. -/
def zeros50k : FVec F S50000 .f32 := broadcastInDim S50000 ![] bcast_S_S50000 (constant S_ .f32 0x00000000#32)

/-- A node's degree: the sum of the weights of the entries that target it. -/
def degree (d : IVec S850000 32) (w : FVec F S850000 .f32) : FVec F S50000 .f32 :=
  Host.scatterAdd scatter_S50000_S850000x1_S850000_n_0_0_1 zeros50k (col d) w

/-- 1/sqrt(degree) where the degree is positive, else 0. -/
def dinv (d : IVec S850000 32) (w : FVec F S850000 .f32) : FVec F S50000 .f32 :=
  select (cmpf .ogt (degree d w) zeros50k) (Host.rsqrt (degree d w)) zeros50k

/-- The entries' normalised weights dv(s) · w · dv(t) for a given per-node factor dv. -/
def normOf (dv : FVec F S50000 .f32) (s d : IVec S850000 32) (w : FVec F S850000 .f32) : FVec F S850000 .f32 :=
  mulf (mulf (Host.gather gather_S50000_S850000x1_S850000_n_0_n_n_0_1_1 dv (wrapCol s)) w)
    (Host.gather gather_S50000_S850000x1_S850000_n_0_n_n_0_1_1 dv (wrapCol d))

/-- The entries' normalised weights dinv(s) · w · dinv(t). -/
def norm (s d : IVec S850000 32) (w : FVec F S850000 .f32) : FVec F S850000 .f32 := normOf (dinv d w) s d w

/-- Row s of h scaled by the entry's normalised weight, added at the entry's target. -/
def aggregate (h : FVec F S50000x64 .f32) (s d : IVec S850000 32) (nrm : FVec F S850000 .f32) : FVec F S50000x64 .f32 :=
  Host.scatterAdd scatter_S50000x64_S850000x1_S850000x64_1_0_0_1 (broadcastInDim S50000x64 ![] bcast_S_S50000x64 (constant S_ .f32 0x00000000#32)) (col d)
    (mulf (Host.gather gather_S50000x64_S850000x1_S850000x64_1_0_n_n_0_1_164 h (wrapCol s))
      (broadcastInDim S850000x64 ![0, 1] bcast_S850000x1_S850000x64_0_1 (broadcastInDim S850000x1 ![0] bcast_S850000_S850000x1_0 nrm)))

/-- A bias vector as one row. -/
def rowOf (b : FVec F S64 .f32) : FVec F S1x64 .f32 := broadcastInDim S1x64 ![1] bcast_S64_S1x64_1 b

/-- A row added to every row of a matrix. -/
def addRow (A : FVec F S50000x64 .f32) (r : FVec F S1x64 .f32) : FVec F S50000x64 .f32 :=
  addf A (broadcastInDim S50000x64 ![0, 1] bcast_S1x64_S50000x64_0_1 r)

/-- The maximum with zero, entry by entry. -/
def relu (A : FVec F S50000x64 .f32) : FVec F S50000x64 .f32 :=
  maximumf A (broadcastInDim S50000x64 ![] bcast_S_S50000x64 (constant S_ .f32 0x00000000#32))

/-- The first layer's dense transform X · W. -/
def mm1 (X : FVec F S50000x128 .f32) (W : FVec F S128x64 .f32) : FVec F S50000x64 .f32 :=
  Host.dotGeneral dot_S50000x128_S128x64_S50000x64_1_0_0_1_n_n none X W

/-- The later layers' dense transform H · W. -/
def mm2 (H : FVec F S50000x64 .f32) (W : FVec F S64x64 .f32) : FVec F S50000x64 .f32 :=
  Host.dotGeneral dot_S50000x64_S64x64_S50000x64_1_0_0_1_n_n none H W

/-- The whole network. -/
def out (x0 : FVec F S50000x128 .f32) (x1 : IVec S2x800000 32) (x2 : FVec F S800000 .f32) (x3 : FVec F S128x64 .f32)
    (x4 : FVec F S64 .f32) (x5 : FVec F S64x64 .f32) (x6 : FVec F S64 .f32) (x7 : FVec F S64x64 .f32) (x8 : FVec F S64 .f32) :
    FVec F S50000x64 .f32 :=
  addRow (aggregate (mm2 (relu (addRow (aggregate (mm2 (relu (addRow (aggregate (mm1 x0 x3) (srcs x1) (dsts x1)
      (norm (srcs x1) (dsts x1) (weights x2))) (rowOf x4))) x5) (srcs x1) (dsts x1)
      (norm (srcs x1) (dsts x1) (weights x2))) (rowOf x6))) x7) (srcs x1) (dsts x1)
      (norm (srcs x1) (dsts x1) unitWeights)) (rowOf x8)

end Cert.Gcn

end
-- ==== Proof.KernelRun.lean ====
/-
  The idealized kernel program's run with its result named.

  The program is six pipelined regions (three row-blocked matrix products, three row-blocked bias additions) among
  stretches of host operations.  Every weakly fair execution from any memory terminates without a fault, and in the
  final state each buffer the program does not scope holds the value of the fold of the program's segments over the
  launch memory: a host stretch rewrites the buffers its operations write, a region rewrites its output array with the
  blocks its grid points flush.  Here that final state is read at the result buffer and at the nine argument buffers:
  the result holds the fold's value at the result buffer, the arguments hold what they held at launch.
-/
import proofs.«139161_j17952963297475_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the segments' fold read at it, the arguments as launched. -/
theorem run_result : θ_run defs (onTc (τ := τ) (main (F := F))) ⟨m, fun _ => 0, ρ⟩ (fun r => ∀ c : Dev nD,
      r.2.mem ((c.tc : Thread nD τ).loc main_v106) = W14 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v106 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.KRun

end
-- ==== Proof.LibCombine.lean ====
/-
  Sums of per-relation contributions and bias rows, rectified: the vector unit's spelling against the host's.

  A bias row r (a 1 × n matrix) broadcast down the rows of a matrix has r[0, q] at entry (p, q), whether it is spelt as a
  trailing-axes broadcast of a block or as a broadcast along named axes of the whole matrix.  The kernel adds three
  contributions and three bias rows from left to right, (((((x0 + y0) + x1) + y1) + x2) + y2); the host adds each
  contribution to its own bias first and then adds the three, ((x0 + y0) + (x1 + y1)) + (x2 + y2).  Addition on the
  extended reals is associative (and commutative), with no finiteness needed, so the two agree entry by entry; the
  maximum against zero is then taken of equal numbers.  A vector reshaped to one row is the same row as the vector given
  a leading unit axis.  All extents are variables.
-/
import Idealize.ShloMosaic.PureOps.Ideal.Laws
import Idealize.ShloMosaic.Lib.ValueIdx
import Idealize.ShloMosaic.Lib.Pipeline.Value

noncomputable section

namespace Cert.LibCombine

open Idealize.ShloMosaic Idealize.ShloMosaic.ValueIdx

/-- A coordinate below an extent is itself, or zero when the extent is one. -/
theorem val_eq_ite {n : Nat} (a : Fin n) : a.val = if n = 1 then 0 else a.val := by
  split
  · have := a.isLt; omega
  · rfl

/-- A row (1 × n) cast to its own shape and broadcast down a rows reads, at (p, q), the row at q. -/
theorem blockRow_apply {α : Type} {a n : Nat} (r : (⟨2, ![1, n]⟩ : Shape).Idx → α)
    (h1 : (⟨2, ![1, n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ r h1) h2 (ix2 p q) = r (ix2 0 q) := by
  rw [shapeCast_self]
  exact broadcastTo_apply _ h2 (ix2 p q) (ix2 0 q) (fun c => by
    match c with
    | ⟨0, _⟩ => show (0 : Nat) = if (1 : Nat) = 1 then 0 else _; rw [if_pos rfl]
    | ⟨1, _⟩ => exact val_eq_ite (n := n) q)

/-- A row (1 × n) broadcast along both axes down A rows reads, at (P, q), the row at q. -/
theorem wholeRow_apply {α : Type} {A n : Nat} (r : (⟨2, ![1, n]⟩ : Shape).Idx → α)
    (h4 : (⟨2, ![1, n]⟩ : Shape).BroadcastsInDim ⟨2, ![A, n]⟩ (![0, 1] : Fin 2 → Fin 2)) (P : Fin A) (q : Fin n) :
    broadcastInDim ⟨2, ![A, n]⟩ ![0, 1] h4 r (ix2 P q) = r (ix2 0 q) :=
  broadcastInDim_apply _ h4 _ (ix2 P q) (ix2 0 q) (fun c => by
    match c with
    | ⟨0, _⟩ => show (0 : Nat) = if (1 : Nat) = 1 then 0 else _; rw [if_pos rfl]
    | ⟨1, _⟩ => exact val_eq_ite (n := n) q)

/-- A vector of length n reshaped to one row is the vector given a leading unit axis. -/
theorem reshapeRow_eq {α : Type} {n : Nat} (b : (⟨1, ![n]⟩ : Shape).Idx → α)
    (h0 : (⟨1, ![n]⟩ : Shape).ShapeCasts ⟨2, ![1, n]⟩)
    (h3 : (⟨1, ![n]⟩ : Shape).BroadcastsInDim ⟨2, ![1, n]⟩ (![1] : Fin 1 → Fin 2)) :
    shapeCast ⟨2, ![1, n]⟩ b h0 = broadcastInDim ⟨2, ![1, n]⟩ ![1] h3 b := by
  funext i
  obtain ⟨z, q, rfl⟩ : ∃ (z : Fin 1) (q : Fin n), i = ix2 z q := ⟨i 0, i 1, eq_ix2 i⟩
  rw [broadcastInDim_apply _ h3 b (ix2 z q) (ix1 q) (fun c => by
    match c with
    | ⟨0, _⟩ => exact val_eq_ite (n := n) q)]
  refine shapeCast_apply b h0 (ix2 z q) (ix1 q) ?_
  rw [Shape.rowMajor_val_one, Shape.rowMajor_val_two]
  have hz : z.val = 0 := by have := z.isLt; omega
  show q.val = z.val * n + q.val
  rw [hz]; omega

/-- THREE CONTRIBUTIONS WITH THEIR BIAS ROWS, RECTIFIED, at one entry: the kernel's left-to-right sum over a block is the
    host's grouped sum over the whole matrix, when the block's entry (p, q) is the whole's entry (P, q) and the block's bias
    rows are the whole bias rows at column q. -/
theorem combine3_entry {a A n : Nat} (a0 a1 a2 : FVec Ideal ⟨2, ![a, n]⟩ .f32) (r0 r1 r2 : FVec Ideal ⟨2, ![1, n]⟩ .f32)
    (A0 A1 A2 : FVec Ideal ⟨2, ![A, n]⟩ .f32) (R0 R1 R2 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A)
    (e0 : a0 (ix2 p q) = A0 (ix2 P q)) (e1 : a1 (ix2 p q) = A1 (ix2 P q)) (e2 : a2 (ix2 p q) = A2 (ix2 P q))
    (f0 : r0 (ix2 0 q) = R0 (ix2 0 q)) (f1 : r1 (ix2 0 q) = R1 (ix2 0 q)) (f2 : r2 (ix2 0 q) = R2 (ix2 0 q)) :
    maximumf (addf (addf (addf (addf (addf a0
        (broadcastTo ⟨2, ![a, n]⟩ (shapeCast ⟨2, ![1, n]⟩ r0 h1) h2)) a1)
        (broadcastTo ⟨2, ![a, n]⟩ (shapeCast ⟨2, ![1, n]⟩ r1 h1) h2)) a2)
        (broadcastTo ⟨2, ![a, n]⟩ (shapeCast ⟨2, ![1, n]⟩ r2 h1) h2))
        (broadcast ⟨2, ![a, n]⟩ (Scalar.ofBits (F := Ideal) .f32 0x00000000#32)) (ix2 p q)
      = maximumf (addf (addf (addf A0 (broadcastInDim ⟨2, ![A, n]⟩ ![0, 1] h4 R0))
          (addf A1 (broadcastInDim ⟨2, ![A, n]⟩ ![0, 1] h4 R1)))
          (addf A2 (broadcastInDim ⟨2, ![A, n]⟩ ![0, 1] h4 R2)))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, blockRow_apply r1 h1 h2 p q, blockRow_apply r2 h1 h2 p q,
    wholeRow_apply R0 h4 P q, wholeRow_apply R1 h4 P q, wholeRow_apply R2 h4 P q, e0, e1, e2, f0, f1, f2]
  simp only [Ideal.addf_def, add_assoc]

/-- ONE CONTRIBUTION WITH ITS BIAS ROW, RECTIFIED, at one entry. -/
theorem combine1_entry {a A n : Nat} (a0 : FVec Ideal ⟨2, ![a, n]⟩ .f32) (r0 : FVec Ideal ⟨2, ![1, n]⟩ .f32)
    (A0 : FVec Ideal ⟨2, ![A, n]⟩ .f32) (R0 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A) (e0 : a0 (ix2 p q) = A0 (ix2 P q)) (f0 : r0 (ix2 0 q) = R0 (ix2 0 q)) :
    maximumf (addf a0 (broadcastTo ⟨2, ![a, n]⟩ (shapeCast ⟨2, ![1, n]⟩ r0 h1) h2))
        (broadcast ⟨2, ![a, n]⟩ (Scalar.ofBits (F := Ideal) .f32 0x00000000#32)) (ix2 p q)
      = maximumf (addf A0 (broadcastInDim ⟨2, ![A, n]⟩ ![0, 1] h4 R0))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, wholeRow_apply R0 h4 P q, e0, f0]

end Cert.LibCombine

end
-- ==== Proof.Prefix.lean ====
/-
  The host operations before the first region, read back piece by piece: the entries' sources and targets with the
  self-loops, the degrees, their inverse square roots, and the two normalisations (with the given edge weights, and with
  unit weights), as functions of the edge list and the weights; the arguments themselves are not written.
-/
import proofs.«139161_j17952963297475_1_alg».proof.Proof.Gen.KernelIdeal.Frame
import Idealize.ShloMosaic.PureOps.Ideal
import proofs.«139161_j17952963297475_1_alg».proof.Proof.Spec

set_option maxRecDepth 16384

noncomputable section

namespace Cert.KernelIdeal.Prefix

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Each piece of the host prefix from ANY contents -/

section Pieces
variable (Vv : Valuation τ sig (Elt Ideal))

/-- The entries' sources. -/
theorem A_v5 : StableHlo.after hostOps0 Vv (Proc.devRef .tc main_v5) = Cert.Gcn.srcs (Vv (Proc.devRef .tc main_arg1)) := by
  after_results_simp <;> rfl

/-- The entries' targets. -/
theorem A_v6 : StableHlo.after hostOps0 Vv (Proc.devRef .tc main_v6) = Cert.Gcn.dsts (Vv (Proc.devRef .tc main_arg1)) := by
  after_results_simp <;> rfl

/-- The self-loops' weights. -/
theorem A_v7 : StableHlo.after hostOps0 Vv (Proc.devRef .tc main_v7) = Cert.Gcn.ones50k (F := Ideal) := by
  after_results_simp <;> rfl

/-- The entries' weights. -/
theorem A_v8 : StableHlo.after hostOps0 Vv (Proc.devRef .tc main_v8) = Cert.Gcn.weights (F := Ideal) (Vv (Proc.devRef .tc main_arg2)) := by
  after_results_simp <;> rfl

/-- Where the degree is positive. -/
theorem A_v13 : StableHlo.after hostOps0 Vv (Proc.devRef .tc main_v13) = cmpf .ogt (Cert.Gcn.degree (F := Ideal) (Cert.Gcn.dsts (Vv (Proc.devRef .tc main_arg1))) (Cert.Gcn.weights (F := Ideal) (Vv (Proc.devRef .tc main_arg2)))) (Cert.Gcn.zeros50k (F := Ideal)) := by
  after_results_simp <;> rfl

/-- The degree's inverse square root. -/
theorem A_v14 : StableHlo.after hostOps0 Vv (Proc.devRef .tc main_v14) = Host.rsqrt (Cert.Gcn.degree (F := Ideal) (Cert.Gcn.dsts (Vv (Proc.devRef .tc main_arg1))) (Cert.Gcn.weights (F := Ideal) (Vv (Proc.devRef .tc main_arg2)))) := by
  after_results_simp <;> rfl

/-- Zero elsewhere. -/
theorem A_v15 : StableHlo.after hostOps0 Vv (Proc.devRef .tc main_v15) = Cert.Gcn.zeros50k (F := Ideal) := by
  after_results_simp <;> rfl

/-- The choice between the two. -/
theorem B_v16 : StableHlo.after hostOps0_1 Vv (Proc.devRef .tc main_v16) = select (α := Ideal .f32) (Vv (Proc.devRef .tc main_v13)) (Vv (Proc.devRef .tc main_v14)) (Vv (Proc.devRef .tc main_v15)) := by
  after_results_simp <;> rfl

/-- The normalised weights. -/
theorem C_v32 : StableHlo.after hostOps0_2 Vv (Proc.devRef .tc main_v32) = Cert.Gcn.normOf (F := Ideal) (Vv (Proc.devRef .tc main_v16)) (Vv (Proc.devRef .tc main_v5)) (Vv (Proc.devRef .tc main_v6)) (Vv (Proc.devRef .tc main_v8)) := by
  after_results_simp <;> rfl

/-- Unit weights. -/
theorem C_v34 : StableHlo.after hostOps0_2 Vv (Proc.devRef .tc main_v34) = Cert.Gcn.weightsWith (F := Ideal) (Cert.Gcn.ones800k (F := Ideal)) (Vv (Proc.devRef .tc main_v7)) := by
  after_results_simp <;> rfl

/-- Where the unit-weight degree is positive. -/
theorem C_v39 : StableHlo.after hostOps0_2 Vv (Proc.devRef .tc main_v39) = cmpf .ogt (Cert.Gcn.degree (F := Ideal) (Vv (Proc.devRef .tc main_v6)) (Cert.Gcn.weightsWith (F := Ideal) (Cert.Gcn.ones800k (F := Ideal)) (Vv (Proc.devRef .tc main_v7)))) (Cert.Gcn.zeros50k (F := Ideal)) := by
  after_results_simp <;> rfl

/-- Its inverse square root. -/
theorem C_v40 : StableHlo.after hostOps0_2 Vv (Proc.devRef .tc main_v40) = Host.rsqrt (Cert.Gcn.degree (F := Ideal) (Vv (Proc.devRef .tc main_v6)) (Cert.Gcn.weightsWith (F := Ideal) (Cert.Gcn.ones800k (F := Ideal)) (Vv (Proc.devRef .tc main_v7)))) := by
  after_results_simp <;> rfl

/-- Zero elsewhere. -/
theorem C_v41 : StableHlo.after hostOps0_2 Vv (Proc.devRef .tc main_v41) = Cert.Gcn.zeros50k (F := Ideal) := by
  after_results_simp <;> rfl

/-- The choice between the two. -/
theorem D_v42 : StableHlo.after hostOps0_3 Vv (Proc.devRef .tc main_v42) = select (α := Ideal .f32) (Vv (Proc.devRef .tc main_v39)) (Vv (Proc.devRef .tc main_v40)) (Vv (Proc.devRef .tc main_v41)) := by
  after_results_simp <;> rfl

/-- The unit-weight normalised weights. -/
theorem E_v58 : StableHlo.after hostOps0_4 Vv (Proc.devRef .tc main_v58) = Cert.Gcn.normOf (F := Ideal) (Vv (Proc.devRef .tc main_v42)) (Vv (Proc.devRef .tc main_v5)) (Vv (Proc.devRef .tc main_v6)) (Vv (Proc.devRef .tc main_v34)) := by
  after_results_simp <;> rfl

theorem B_keep_v5 : StableHlo.after hostOps0_1 Vv (Proc.devRef .tc main_v5) = Vv (Proc.devRef .tc main_v5) :=
  StableHlo.after_of_forall_not_mem (b := Proc.devRef .tc main_v5) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem B_keep_v6 : StableHlo.after hostOps0_1 Vv (Proc.devRef .tc main_v6) = Vv (Proc.devRef .tc main_v6) :=
  StableHlo.after_of_forall_not_mem (b := Proc.devRef .tc main_v6) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem B_keep_v7 : StableHlo.after hostOps0_1 Vv (Proc.devRef .tc main_v7) = Vv (Proc.devRef .tc main_v7) :=
  StableHlo.after_of_forall_not_mem (b := Proc.devRef .tc main_v7) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem B_keep_v8 : StableHlo.after hostOps0_1 Vv (Proc.devRef .tc main_v8) = Vv (Proc.devRef .tc main_v8) :=
  StableHlo.after_of_forall_not_mem (b := Proc.devRef .tc main_v8) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem C_keep_v5 : StableHlo.after hostOps0_2 Vv (Proc.devRef .tc main_v5) = Vv (Proc.devRef .tc main_v5) :=
  StableHlo.after_of_forall_not_mem (b := Proc.devRef .tc main_v5) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem C_keep_v6 : StableHlo.after hostOps0_2 Vv (Proc.devRef .tc main_v6) = Vv (Proc.devRef .tc main_v6) :=
  StableHlo.after_of_forall_not_mem (b := Proc.devRef .tc main_v6) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem D_keep_v5 : StableHlo.after hostOps0_3 Vv (Proc.devRef .tc main_v5) = Vv (Proc.devRef .tc main_v5) :=
  StableHlo.after_of_forall_not_mem (b := Proc.devRef .tc main_v5) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem D_keep_v6 : StableHlo.after hostOps0_3 Vv (Proc.devRef .tc main_v6) = Vv (Proc.devRef .tc main_v6) :=
  StableHlo.after_of_forall_not_mem (b := Proc.devRef .tc main_v6) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem D_keep_v32 : StableHlo.after hostOps0_3 Vv (Proc.devRef .tc main_v32) = Vv (Proc.devRef .tc main_v32) :=
  StableHlo.after_of_forall_not_mem (b := Proc.devRef .tc main_v32) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem D_keep_v34 : StableHlo.after hostOps0_3 Vv (Proc.devRef .tc main_v34) = Vv (Proc.devRef .tc main_v34) :=
  StableHlo.after_of_forall_not_mem (b := Proc.devRef .tc main_v34) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem E_keep_v5 : StableHlo.after hostOps0_4 Vv (Proc.devRef .tc main_v5) = Vv (Proc.devRef .tc main_v5) :=
  StableHlo.after_of_forall_not_mem (b := Proc.devRef .tc main_v5) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem E_keep_v6 : StableHlo.after hostOps0_4 Vv (Proc.devRef .tc main_v6) = Vv (Proc.devRef .tc main_v6) :=
  StableHlo.after_of_forall_not_mem (b := Proc.devRef .tc main_v6) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem E_keep_v32 : StableHlo.after hostOps0_4 Vv (Proc.devRef .tc main_v32) = Vv (Proc.devRef .tc main_v32) :=
  StableHlo.after_of_forall_not_mem (b := Proc.devRef .tc main_v32) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Pieces

/-! ## The prefix from the launch memory -/

/-- The entries' sources. -/
theorem srcs_eq : W5 m ρ c (Proc.devRef .tc main_v5) = Cert.Gcn.srcs (m ((c.tc : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v5) = _
  after_results_simp <;> rfl

/-- The entries' targets. -/
theorem dsts_eq : W5 m ρ c (Proc.devRef .tc main_v6) = Cert.Gcn.dsts (m ((c.tc : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v6) = _
  after_results_simp <;> rfl

/-- 1/sqrt(degree) or zero, from the given edge weights. -/
theorem dinvW_eq : W2 m ρ c (Proc.devRef .tc main_v16) = Cert.Gcn.dinv (F := Ideal) (Cert.Gcn.dsts (m ((c.tc : Thread nD τ).loc main_arg1))) (Cert.Gcn.weights (F := Ideal) (m ((c.tc : Thread nD τ).loc main_arg2))) :=
  (B_v16 (W1 m ρ c)).trans (by
    rw [show W1 m ρ c (Proc.devRef .tc main_v13) = _ from A_v13 (W0 m ρ c), show W1 m ρ c (Proc.devRef .tc main_v14) = _ from A_v14 (W0 m ρ c),
      show W1 m ρ c (Proc.devRef .tc main_v15) = _ from A_v15 (W0 m ρ c)]
    rfl)

/-- The normalised weights from the given edge weights, when the first region is entered. -/
theorem normW_eq : W5 m ρ c (Proc.devRef .tc main_v32) = Cert.Gcn.norm (F := Ideal) (Cert.Gcn.srcs (m ((c.tc : Thread nD τ).loc main_arg1))) (Cert.Gcn.dsts (m ((c.tc : Thread nD τ).loc main_arg1))) (Cert.Gcn.weights (F := Ideal) (m ((c.tc : Thread nD τ).loc main_arg2))) :=
  calc W5 m ρ c (Proc.devRef .tc main_v32)
    _ = W4 m ρ c (Proc.devRef .tc main_v32) := E_keep_v32 (W4 m ρ c)
    _ = W3 m ρ c (Proc.devRef .tc main_v32) := D_keep_v32 (W3 m ρ c)
    _ = Cert.Gcn.normOf (F := Ideal) (W2 m ρ c (Proc.devRef .tc main_v16)) (W2 m ρ c (Proc.devRef .tc main_v5)) (W2 m ρ c (Proc.devRef .tc main_v6)) (W2 m ρ c (Proc.devRef .tc main_v8)) := C_v32 (W2 m ρ c)
    _ = _ := by
      rw [dinvW_eq, show W2 m ρ c (Proc.devRef .tc main_v5) = _ from (B_keep_v5 (W1 m ρ c)).trans (A_v5 (W0 m ρ c)),
        show W2 m ρ c (Proc.devRef .tc main_v6) = _ from (B_keep_v6 (W1 m ρ c)).trans (A_v6 (W0 m ρ c)),
        show W2 m ρ c (Proc.devRef .tc main_v8) = _ from (B_keep_v8 (W1 m ρ c)).trans (A_v8 (W0 m ρ c))]
      rfl

/-- The unit weights. -/
theorem unitW_eq : W3 m ρ c (Proc.devRef .tc main_v34) = Cert.Gcn.unitWeights (F := Ideal) :=
  (C_v34 (W2 m ρ c)).trans (by
    rw [show W2 m ρ c (Proc.devRef .tc main_v7) = _ from (B_keep_v7 (W1 m ρ c)).trans (A_v7 (W0 m ρ c))]
    rfl)

theorem dsts3_eq : W3 m ρ c (Proc.devRef .tc main_v6) = Cert.Gcn.dsts (m ((c.tc : Thread nD τ).loc main_arg1)) :=
  (C_keep_v6 (W2 m ρ c)).trans ((B_keep_v6 (W1 m ρ c)).trans (A_v6 (W0 m ρ c)))

theorem srcs3_eq : W3 m ρ c (Proc.devRef .tc main_v5) = Cert.Gcn.srcs (m ((c.tc : Thread nD τ).loc main_arg1)) :=
  (C_keep_v5 (W2 m ρ c)).trans ((B_keep_v5 (W1 m ρ c)).trans (A_v5 (W0 m ρ c)))

/-- 1/sqrt(degree) or zero, from unit weights. -/
theorem dinv1_eq : W4 m ρ c (Proc.devRef .tc main_v42) = Cert.Gcn.dinv (F := Ideal) (Cert.Gcn.dsts (m ((c.tc : Thread nD τ).loc main_arg1))) (Cert.Gcn.unitWeights (F := Ideal)) :=
  (D_v42 (W3 m ρ c)).trans (by
    rw [show W3 m ρ c (Proc.devRef .tc main_v39) = _ from C_v39 (W2 m ρ c), show W3 m ρ c (Proc.devRef .tc main_v40) = _ from C_v40 (W2 m ρ c),
      show W3 m ρ c (Proc.devRef .tc main_v41) = _ from C_v41 (W2 m ρ c),
      show W2 m ρ c (Proc.devRef .tc main_v6) = _ from (B_keep_v6 (W1 m ρ c)).trans (A_v6 (W0 m ρ c)),
      show W2 m ρ c (Proc.devRef .tc main_v7) = _ from (B_keep_v7 (W1 m ρ c)).trans (A_v7 (W0 m ρ c))]
    rfl)

/-- The normalised weights from unit edge weights, when the first region is entered. -/
theorem norm1_eq : W5 m ρ c (Proc.devRef .tc main_v58) = Cert.Gcn.norm (F := Ideal) (Cert.Gcn.srcs (m ((c.tc : Thread nD τ).loc main_arg1))) (Cert.Gcn.dsts (m ((c.tc : Thread nD τ).loc main_arg1))) (Cert.Gcn.unitWeights (F := Ideal)) :=
  calc W5 m ρ c (Proc.devRef .tc main_v58)
    _ = Cert.Gcn.normOf (F := Ideal) (W4 m ρ c (Proc.devRef .tc main_v42)) (W4 m ρ c (Proc.devRef .tc main_v5)) (W4 m ρ c (Proc.devRef .tc main_v6)) (W4 m ρ c (Proc.devRef .tc main_v34)) := E_v58 (W4 m ρ c)
    _ = _ := by
      rw [dinv1_eq, show W4 m ρ c (Proc.devRef .tc main_v5) = _ from (D_keep_v5 (W3 m ρ c)).trans (srcs3_eq m ρ c),
        show W4 m ρ c (Proc.devRef .tc main_v6) = _ from (D_keep_v6 (W3 m ρ c)).trans (dsts3_eq m ρ c),
        show W4 m ρ c (Proc.devRef .tc main_v34) = _ from (D_keep_v34 (W3 m ρ c)).trans (unitW_eq m ρ c)]
      rfl

/-- Argument 0 is as launched. -/
theorem arg0_eq : W5 m ρ c (Proc.devRef .tc main_arg0) = m ((c.tc : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  after_results_simp <;> rfl

/-- Argument 3 is as launched. -/
theorem arg3_eq : W5 m ρ c (Proc.devRef .tc main_arg3) = m ((c.tc : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  after_results_simp <;> rfl

/-- Argument 4 is as launched. -/
theorem arg4_eq : W5 m ρ c (Proc.devRef .tc main_arg4) = m ((c.tc : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  after_results_simp <;> rfl

/-- Argument 5 is as launched. -/
theorem arg5_eq : W5 m ρ c (Proc.devRef .tc main_arg5) = m ((c.tc : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  after_results_simp <;> rfl

/-- Argument 6 is as launched. -/
theorem arg6_eq : W5 m ρ c (Proc.devRef .tc main_arg6) = m ((c.tc : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  after_results_simp <;> rfl

/-- Argument 7 is as launched. -/
theorem arg7_eq : W5 m ρ c (Proc.devRef .tc main_arg7) = m ((c.tc : Thread nD τ).loc main_arg7) := by
  show StableHlo.after hostOps0_4 (StableHlo.after hostOps0_3 (StableHlo.after hostOps0_2 (StableHlo.after hostOps0_1 (StableHlo.after hostOps0 (W0 m ρ c))))) (Proc.devRef .tc main_arg7) = _
  after_results_simp <;> rfl

/-- Argument 8 is as launched. -/
theorem arg8_eq : W5 m ρ c (Proc.devRef .tc main_arg8) = m ((c.tc : Thread nD τ).loc main_arg8) := by
  show StableHlo.after hostOps0_4 (StableHlo.after hostOps0_3 (StableHlo.after hostOps0_2 (StableHlo.after hostOps0_1 (StableHlo.after hostOps0 (W0 m ρ c))))) (Proc.devRef .tc main_arg8) = _
  after_results_simp <;> rfl

end Cert.KernelIdeal.Prefix

end
-- ==== Proof.Stretch.lean ====
/-
  The three stretches of host operations between the regions, read back: each gathers the rows of the preceding product
  at the entries' sources, scales them by the entries' normalised weights and adds them at the entries' targets, and lays
  the layer's bias vector out as one row.
-/
import proofs.«139161_j17952963297475_1_alg».proof.Proof.Gen.KernelIdeal.Frame
import Idealize.ShloMosaic.PureOps.Ideal
import proofs.«139161_j17952963297475_1_alg».proof.Proof.Spec

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first layer's aggregation. -/
theorem agg1 : W7 m ρ c (Proc.devRef .tc main_v72) = Cert.Gcn.aggregate (F := Ideal) (W6 m ρ c (Proc.devRef .tc main_v59)) (W6 m ρ c (Proc.devRef .tc main_v5)) (W6 m ρ c (Proc.devRef .tc main_v6)) (W6 m ρ c (Proc.devRef .tc main_v32)) := by
  show StableHlo.after hostOps1 (W6 m ρ c) (Proc.devRef .tc main_v72) = _
  after_results_simp <;> rfl

/-- The first bias as a row. -/
theorem row1 : W7 m ρ c (Proc.devRef .tc main_v73) = shapeCast S1x64 (W6 m ρ c (Proc.devRef .tc main_arg4)) shapeCasts_S64_S1x64 := by
  show StableHlo.after hostOps1 (W6 m ρ c) (Proc.devRef .tc main_v73) = _
  after_results_simp <;> rfl

/-- The second layer's aggregation. -/
theorem agg2 : W10 m ρ c (Proc.devRef .tc main_v88) = Cert.Gcn.aggregate (F := Ideal) (W9 m ρ c (Proc.devRef .tc main_v75)) (W9 m ρ c (Proc.devRef .tc main_v5)) (W9 m ρ c (Proc.devRef .tc main_v6)) (W9 m ρ c (Proc.devRef .tc main_v32)) := by
  show StableHlo.after hostOps3 (W9 m ρ c) (Proc.devRef .tc main_v88) = _
  after_results_simp <;> rfl

/-- The second bias as a row. -/
theorem row2 : W10 m ρ c (Proc.devRef .tc main_v89) = shapeCast S1x64 (W9 m ρ c (Proc.devRef .tc main_arg6)) shapeCasts_S64_S1x64 := by
  show StableHlo.after hostOps3 (W9 m ρ c) (Proc.devRef .tc main_v89) = _
  after_results_simp <;> rfl

/-- The third layer's aggregation. -/
theorem agg3 : W13 m ρ c (Proc.devRef .tc main_v104) = Cert.Gcn.aggregate (F := Ideal) (W12 m ρ c (Proc.devRef .tc main_v91)) (W12 m ρ c (Proc.devRef .tc main_v5)) (W12 m ρ c (Proc.devRef .tc main_v6)) (W12 m ρ c (Proc.devRef .tc main_v58)) := by
  show StableHlo.after hostOps5 (W12 m ρ c) (Proc.devRef .tc main_v104) = _
  after_results_simp <;> rfl

/-- The third bias as a row. -/
theorem row3 : W13 m ρ c (Proc.devRef .tc main_v105) = shapeCast S1x64 (W12 m ρ c (Proc.devRef .tc main_arg8)) shapeCasts_S64_S1x64 := by
  show StableHlo.after hostOps5 (W12 m ρ c) (Proc.devRef .tc main_v105) = _
  after_results_simp <;> rfl

end Cert.KernelIdeal.Stretch

end
-- ==== Proof.Carry.lean ====
/-
  Buffers that later regions and host stretches do not write keep, at every later boundary, the contents they had when
  the first region was entered: a region rewrites only its own output array, a host stretch only the buffers its
  operations name as results.
-/
import proofs.«139161_j17952963297475_1_alg».proof.Proof.Gen.KernelIdeal.Frame
import Idealize.ShloMosaic.PureOps.Ideal

set_option maxRecDepth 16384

noncomputable section

namespace Cert.KernelIdeal.Carry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem at6_v5 : W6 m ρ c (Proc.devRef .tc main_v5) = W5 m ρ c (Proc.devRef .tc main_v5) :=
  calc W6 m ρ c (Proc.devRef .tc main_v5)
    _ = W5 m ρ c (Proc.devRef .tc main_v5) := W6_of_ne m ρ c main_v5 (by decide)

theorem at6_v6 : W6 m ρ c (Proc.devRef .tc main_v6) = W5 m ρ c (Proc.devRef .tc main_v6) :=
  calc W6 m ρ c (Proc.devRef .tc main_v6)
    _ = W5 m ρ c (Proc.devRef .tc main_v6) := W6_of_ne m ρ c main_v6 (by decide)

theorem at6_v32 : W6 m ρ c (Proc.devRef .tc main_v32) = W5 m ρ c (Proc.devRef .tc main_v32) :=
  calc W6 m ρ c (Proc.devRef .tc main_v32)
    _ = W5 m ρ c (Proc.devRef .tc main_v32) := W6_of_ne m ρ c main_v32 (by decide)

theorem at6_arg4 : W6 m ρ c (Proc.devRef .tc main_arg4) = W5 m ρ c (Proc.devRef .tc main_arg4) :=
  calc W6 m ρ c (Proc.devRef .tc main_arg4)
    _ = W5 m ρ c (Proc.devRef .tc main_arg4) := W6_of_ne m ρ c main_arg4 (by decide)

theorem at8_arg5 : W8 m ρ c (Proc.devRef .tc main_arg5) = W5 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)

theorem at9_v5 : W9 m ρ c (Proc.devRef .tc main_v5) = W5 m ρ c (Proc.devRef .tc main_v5) :=
  calc W9 m ρ c (Proc.devRef .tc main_v5)
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v5) := W6_of_ne m ρ c main_v5 (by decide)

theorem at9_v6 : W9 m ρ c (Proc.devRef .tc main_v6) = W5 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)

theorem at9_v32 : W9 m ρ c (Proc.devRef .tc main_v32) = W5 m ρ c (Proc.devRef .tc main_v32) :=
  calc W9 m ρ c (Proc.devRef .tc main_v32)
    _ = W8 m ρ c (Proc.devRef .tc main_v32) := W9_of_ne m ρ c main_v32 (by decide)
    _ = W7 m ρ c (Proc.devRef .tc main_v32) := W8_of_ne m ρ c main_v32 (by decide)
    _ = W6 m ρ c (Proc.devRef .tc main_v32) := StableHlo.after_of_forall_not_mem (b := Proc.devRef .tc main_v32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v32) := W6_of_ne m ρ c main_v32 (by decide)

theorem at9_arg6 : W9 m ρ c (Proc.devRef .tc main_arg6) = W5 m ρ c (Proc.devRef .tc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)

theorem at11_arg7 : W11 m ρ c (Proc.devRef .tc main_arg7) = W5 m ρ c (Proc.devRef .tc main_arg7) :=
  calc W11 m ρ c (Proc.devRef .tc main_arg7)
    _ = W10 m ρ c (Proc.devRef .tc main_arg7) := W11_of_ne m ρ c main_arg7 (by decide)
    _ = W9 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)

theorem at12_v5 : W12 m ρ c (Proc.devRef .tc main_v5) = W5 m ρ c (Proc.devRef .tc main_v5) :=
  calc W12 m ρ c (Proc.devRef .tc main_v5)
    _ = W11 m ρ c (Proc.devRef .tc main_v5) := W12_of_ne m ρ c main_v5 (by decide)
    _ = W10 m ρ c (Proc.devRef .tc main_v5) := W11_of_ne m ρ c main_v5 (by decide)
    _ = W9 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v5) := W6_of_ne m ρ c main_v5 (by decide)

theorem at12_v6 : W12 m ρ c (Proc.devRef .tc main_v6) = W5 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := W11_of_ne m ρ c main_v6 (by decide)
    _ = W9 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)

theorem at12_v58 : W12 m ρ c (Proc.devRef .tc main_v58) = W5 m ρ c (Proc.devRef .tc main_v58) :=
  calc W12 m ρ c (Proc.devRef .tc main_v58)
    _ = W11 m ρ c (Proc.devRef .tc main_v58) := W12_of_ne m ρ c main_v58 (by decide)
    _ = W10 m ρ c (Proc.devRef .tc main_v58) := W11_of_ne m ρ c main_v58 (by decide)
    _ = W9 m ρ c (Proc.devRef .tc main_v58) := StableHlo.after_of_forall_not_mem (b := Proc.devRef .tc main_v58) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v58) := W9_of_ne m ρ c main_v58 (by decide)
    _ = W7 m ρ c (Proc.devRef .tc main_v58) := W8_of_ne m ρ c main_v58 (by decide)
    _ = W6 m ρ c (Proc.devRef .tc main_v58) := StableHlo.after_of_forall_not_mem (b := Proc.devRef .tc main_v58) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v58) := W6_of_ne m ρ c main_v58 (by decide)

theorem at12_arg8 : W12 m ρ c (Proc.devRef .tc main_arg8) = W5 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)

end Cert.KernelIdeal.Carry

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.LibMatRows.lean ====
/-
  A matrix product computed one block of rows at a time is the whole product.

  Let X be an M × K matrix, W a K × N matrix, and let x0 be m consecutive rows of X (row p of x0 is row P of X).  The
  product of x0 with W accumulated into the zero matrix has, at (p, q), the sum over k of x0[p, k] · W[k, q]; the host's
  whole product X · W has, at (P, q), the sum over k of X[P, k] · W[k, q].  The two sums have equal terms, so a grid of
  row blocks that tiles X writes exactly the whole product.  On the extended reals nothing else is involved: no
  rounding, no order of summation.  All extents are variables; the records' own facts are hypotheses.
-/
import Idealize.ShloMosaic.Lib.Pipeline.Value
import Idealize.ShloMosaic.Lib.ValueIdx
import Idealize.ShloMosaic.PureOps.Ideal.Laws
import proofs.«139161_j17952963297475_1_alg».proof.Proof.LibLayout
import proofs.«139161_j17952963297475_1_alg».proof.Proof.LibHostDot

noncomputable section

namespace Cert.LibMatRows

open Idealize.ShloMosaic Idealize.ShloMosaic.ValueIdx

/-- Entry (p, q) of a block's product into zero is entry (P, q) of the whole host product, when row p of the block is
    row P of the whole left operand and the right operands agree on column q. -/
theorem block_entry {M m K N : ℕ} {φ₁ φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal ⟨2, ![M, K]⟩ .f32) (W : FVec Ideal ⟨2, ![K, N]⟩ .f32)
    (x0 : FVec Ideal ⟨2, ![m, K]⟩ φ₁) (w0 : FVec Ideal ⟨2, ![K, N]⟩ φ₂)
    (p : Fin m) (q : Fin N) (P : Fin M)
    (hx : ∀ k : Fin K, x0 (ix2 p k) = X (ix2 P k)) (hw : ∀ k : Fin K, w0 (ix2 k q) = W (ix2 k q)) :
    matmul dB none x0 w0 (constant ⟨2, ![m, N]⟩ .f32 0x00000000#32) (ix2 p q)
      = Host.dotGeneral dW none X W (ix2 P q) := by
  rw [Cert.LibLayout.matmul_rows_cols_apply dB hrB hsB hlcB hrcB hl0B hr1B,
    Cert.LibHostDot.dotGeneral_rows_cols_apply dW hrW hsW hlcW hrcW hl0W hr1W]
  refine Finset.sum_congr rfl fun k _ => ?_
  rw [hx k, hw k]

end Cert.LibMatRows

end
-- ==== Proof.Payloads.lean ====
/-
  What one grid point's body computes, entry by entry, against the whole-matrix operations.

  A matrix-product region hands its body 10000 consecutive rows of the left operand and the whole right operand; the body
  narrows both to bf16 (on the extended reals a change of format changes nothing) and multiplies them into a zero
  accumulator.  Entry (p, q) of that block product is the sum over k of x[p, k] · w[k, q], and the whole host product has
  the same sum at (P, q) when row p of the block is row P of the whole operand.
  A bias region hands its body 10000 consecutive rows and the bias as a 1 × 64 row; the body adds the row to every row
  (and, in the first two layers, takes the maximum with zero), which is what the host's broadcast addition (and maximum)
  has at the corresponding entry.
-/
import proofs.«139161_j17952963297475_1_alg».proof.Proof.Gen.KernelIdeal.Skeleton
import proofs.«139161_j17952963297475_1_alg».proof.Proof.Gen.ReferenceIdeal
import proofs.«139161_j17952963297475_1_alg».proof.Proof.Spec
import proofs.«139161_j17952963297475_1_alg».proof.Proof.LibMatRows
import proofs.«139161_j17952963297475_1_alg».proof.Proof.LibCombine
import Idealize.ShloMosaic.Lib.ValueIdx
import Idealize.ShloMosaic.Lib.Pipeline.Value

noncomputable section

namespace Cert.KernelIdeal.Payloads

open Cert.KernelIdeal Cert.KernelIdeal.Gen Idealize.ShloMosaic Idealize.ShloMosaic.ValueIdx

/-! ## The four product records' coordinates: a free axis keeps its coordinate -/

theorem blk1_l0 (j) (k) : (dot_S10000x128_S128x64_S10000x64_1_0_0_1_n_n.lhsIdx j k 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem blk1_r1 (j) (k) : (dot_S10000x128_S128x64_S10000x64_1_0_0_1_n_n.rhsIdx j k 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem blk2_l0 (j) (k) : (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem blk2_r1 (j) (k) : (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem whole1_l0 (j) (k) : (Cert.ReferenceIdeal.dot_S50000x128_S128x64_S50000x64_1_0_0_1_n_n.lhsIdx j k 0).val = (j 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
theorem whole1_r1 (j) (k) : (Cert.ReferenceIdeal.dot_S50000x128_S128x64_S50000x64_1_0_0_1_n_n.rhsIdx j k 1).val = (j 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

theorem whole2_l0 (j) (k) : (Cert.ReferenceIdeal.dot_S50000x64_S64x64_S50000x64_1_0_0_1_n_n.lhsIdx j k 0).val = (j 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide), dif_pos (show (0 : Fin Cert.ReferenceIdeal.S50000x64.rank) ∈ Cert.ReferenceIdeal.dot_S50000x64_S64x64_S50000x64_1_0_0_1_n_n.lhsNonContracting by decide)]
  rfl
theorem whole2_r1 (j) (k) : (Cert.ReferenceIdeal.dot_S50000x64_S64x64_S50000x64_1_0_0_1_n_n.rhsIdx j k 1).val = (j 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide), dif_pos (show (1 : Fin Cert.ReferenceIdeal.S64x64.rank) ∈ Cert.ReferenceIdeal.dot_S50000x64_S64x64_S50000x64_1_0_0_1_n_n.rhsNonContracting by decide)]
  rfl

/-! ## The bodies' values at an entry -/

/-- The first layer's block product at (p, q) is the whole product X · W at (P, q). -/
theorem mm1_entry (X : FVec Ideal Cert.ReferenceIdeal.S50000x128 .f32) (W : FVec Ideal Cert.ReferenceIdeal.S128x64 .f32)
    (x0 : Vec Ideal S10000x128 .f32) (x1 : Vec Ideal S128x64 .f32) (p : Fin 10000) (q : Fin 64) (P : Fin 50000)
    (hx : ∀ k : Fin 128, x0 (ix2 p k) = X (ix2 P k)) (hw : ∀ k : Fin 128, x1 (ix2 k q) = W (ix2 k q)) :
    k0_pay1 x0 x1 (ix2 p q) = Cert.Gcn.mm1 X W (ix2 P q) := by
  unfold k0_pay1 Cert.Gcn.mm1
  exact Cert.LibMatRows.block_entry dot_S10000x128_S128x64_S10000x64_1_0_0_1_n_n Cert.ReferenceIdeal.dot_S50000x128_S128x64_S50000x64_1_0_0_1_n_n
    rfl rfl rfl rfl blk1_l0 blk1_r1 rfl rfl rfl rfl whole1_l0 whole1_r1 X W
    (truncf .bf16 x0 bitsLt_bf16_f32) (truncf .bf16 x1 bitsLt_bf16_f32) p q P (fun k => hx k) (fun k => hw k)

/-- A later layer's block product at (p, q) is the whole product H · W at (P, q). -/
theorem mm2_entry (H : FVec Ideal Cert.ReferenceIdeal.S50000x64 .f32) (W : FVec Ideal Cert.ReferenceIdeal.S64x64 .f32)
    (x0 : Vec Ideal S10000x64 .f32) (x1 : Vec Ideal S64x64 .f32) (p : Fin 10000) (q : Fin 64) (P : Fin 50000)
    (hx : ∀ k : Fin 64, x0 (ix2 p k) = H (ix2 P k)) (hw : ∀ k : Fin 64, x1 (ix2 k q) = W (ix2 k q)) :
    k2_pay1 x0 x1 (ix2 p q) = Cert.Gcn.mm2 H W (ix2 P q) := by
  unfold k2_pay1 Cert.Gcn.mm2
  exact Cert.LibMatRows.block_entry dot_S10000x64_S64x64_S10000x64_1_0_0_1_n_n Cert.ReferenceIdeal.dot_S50000x64_S64x64_S50000x64_1_0_0_1_n_n
    rfl rfl rfl rfl blk2_l0 blk2_r1 rfl rfl rfl rfl whole2_l0 whole2_r1 H W
    (truncf .bf16 (shapeCast S10000x64 x0 shapeCasts_S10000x64_S10000x64) bitsLt_bf16_f32) (truncf .bf16 x1 bitsLt_bf16_f32) p q P
    (fun k => by
      show shapeCast S10000x64 x0 shapeCasts_S10000x64_S10000x64 (ix2 p k) = _
      rw [shapeCast_self]; exact hx k)
    (fun k => hw k)

/-- The third product region's body is the second's, letter for letter. -/
theorem k4_eq_k2 (x0 : Vec Ideal S10000x64 .f32) (x1 : Vec Ideal S64x64 .f32) : k4_pay1 x0 x1 = k2_pay1 x0 x1 := rfl

/-- A rectified bias block at (p, q) is max(A + r, 0) of the whole matrix at (P, q). -/
theorem biasRelu_entry (A : FVec Ideal Cert.ReferenceIdeal.S50000x64 .f32) (r : FVec Ideal Cert.ReferenceIdeal.S1x64 .f32)
    (x0 : Vec Ideal S10000x64 .f32) (x1 : Vec Ideal S1x64 .f32) (p : Fin 10000) (q : Fin 64) (P : Fin 50000)
    (e0 : x0 (ix2 p q) = A (ix2 P q)) (f0 : x1 (ix2 0 q) = r (ix2 0 q)) :
    k1_pay1 x0 x1 (ix2 p q) = Cert.Gcn.relu (Cert.Gcn.addRow A r) (ix2 P q) := by
  unfold k1_pay1 Cert.Gcn.relu Cert.Gcn.addRow
  exact Cert.LibCombine.combine1_entry (shapeCast S10000x64 x0 shapeCasts_S10000x64_S10000x64) (shapeCast S1x64 x1 shapeCasts_S1x64_S1x64) A r
    shapeCasts_S1x64_S1x64 broadcasts_S1x64_S10000x64 Cert.ReferenceIdeal.Gen.bcast_S1x64_S50000x64_0_1 Cert.ReferenceIdeal.Gen.bcast_S_S50000x64 p q P
    (by rw [shapeCast_self]; exact e0) (by rw [shapeCast_self]; exact f0)

/-- The second bias region's body is the first's, letter for letter. -/
theorem k3_eq_k1 (x0 : Vec Ideal S10000x64 .f32) (x1 : Vec Ideal S1x64 .f32) : k3_pay1 x0 x1 = k1_pay1 x0 x1 := rfl

/-- The last bias block at (p, q) is A + r of the whole matrix at (P, q). -/
theorem bias_entry (A : FVec Ideal Cert.ReferenceIdeal.S50000x64 .f32) (r : FVec Ideal Cert.ReferenceIdeal.S1x64 .f32)
    (x0 : Vec Ideal S10000x64 .f32) (x1 : Vec Ideal S1x64 .f32) (p : Fin 10000) (q : Fin 64) (P : Fin 50000)
    (e0 : x0 (ix2 p q) = A (ix2 P q)) (f0 : x1 (ix2 0 q) = r (ix2 0 q)) :
    k5_pay1 x0 x1 (ix2 p q) = Cert.Gcn.addRow A r (ix2 P q) := by
  unfold k5_pay1 Cert.Gcn.addRow
  show FloatOps.addf (shapeCast S10000x64 x0 shapeCasts_S10000x64_S10000x64 (ix2 p q))
      (broadcastTo S10000x64 (shapeCast S1x64 (shapeCast S1x64 x1 shapeCasts_S1x64_S1x64) shapeCasts_S1x64_S1x64) broadcasts_S1x64_S10000x64 (ix2 p q))
    = FloatOps.addf (A (ix2 P q)) (broadcastInDim Cert.ReferenceIdeal.S50000x64 ![0, 1] Cert.ReferenceIdeal.Gen.bcast_S1x64_S50000x64_0_1 r (ix2 P q))
  rw [Cert.LibCombine.blockRow_apply (shapeCast S1x64 x1 shapeCasts_S1x64_S1x64) shapeCasts_S1x64_S1x64 broadcasts_S1x64_S10000x64 p q,
    Cert.LibCombine.wholeRow_apply r Cert.ReferenceIdeal.Gen.bcast_S1x64_S50000x64_0_1 P q]
  simp only [shapeCast_self]
  rw [e0, f0]

end Cert.KernelIdeal.Payloads

end
-- ==== Proof.Blocks0.lean ====
/-
  The first layer's dense transform, block by block, is the whole product.

  The region's grid has five points; point t stages rows 10000·t … 10000·t + 9999 of the first operand and the whole of the
  second, and flushes its 10000 × 64 result block to the same rows of the output array.  The five blocks tile the
  50000 rows, so after the region the output array holds, at every entry, the product of the node features with the first weight matrix.
-/
import proofs.«139161_j17952963297475_1_alg».proof.Proof.Gen.KernelIdeal.Frame
import proofs.«139161_j17952963297475_1_alg».proof.Proof.Payloads

set_option maxRecDepth 16384

noncomputable section

namespace Cert.KernelIdeal.Blocks0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- The index maps over the five points: the row-blocked windows follow the point, the whole-operand window stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem nPoints : cfg0.N = 5 := N_0

/-- What point t flushes is block t of the whole-matrix function of the arrays the region finds. -/
theorem flushed_eq (c : Dev nD) (t : Fin cfg0.N) :
    (dat0 V c).flushed 2 t = ((cfg0.win 2).blk t).view.read (Elt Ideal) (Cert.Gcn.mm1 (F := Ideal) (V c main_arg0) (V c main_arg3)) := by
  show (cfg0.win 2).cut (grid0.coords t) ((dat0 V c).after 2 t) = _
  rw [after0_2]
  unfold out0_2
  rw [View.canon_unit_zero zeroOff]
  simp only [View.ld_unit_zero (S := S10000x128) zeroOff, View.ld_unit_zero (S := S128x64) zeroOff]
  obtain ⟨e0, e1, e2, e3, e4, e5⟩ := idx t
  have ht : t.val < 5 := lt_of_lt_of_eq t.isLt nPoints
  refine funext fun (j : S10000x64.Idx) => ?_
  obtain ⟨p, q, rfl⟩ : ∃ (p : Fin 10000) (q : Fin 64), j = ix2 p q := ⟨j 0, j 1, eq_ix2 j⟩
  have hP : t.val * 10000 + p.val < 50000 := by have := p.isLt; omega
  have hemb : ((cfg0.win 2).blk t).view.emb (ix2 p q) = ix2 (⟨t.val * 10000 + p.val, hP⟩ : Fin 50000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  show k0_pay1 (iblk0 V c 0 t) (iblk0 V c 1 t) (ix2 p q) = Cert.Gcn.mm1 (F := Ideal) (V c main_arg0) (V c main_arg3) (((cfg0.win 2).blk t).view.emb (ix2 p q))
  rw [hemb]
  refine Cert.KernelIdeal.Payloads.mm1_entry _ _ (iblk0 V c 0 t) (iblk0 V c 1 t) p q ⟨t.val * 10000 + p.val, hP⟩ (fun kk => ?_) (fun kk => ?_)
  · show V c main_arg0 (((cfg0.win 0).blk t).view.emb (ix2 p kk)) = V c main_arg0 (ix2 (⟨t.val * 10000 + p.val, hP⟩ : Fin 50000) kk)
    refine congrArg _ ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * kk.val = kk.val; omega
  · show V c main_arg3 (((cfg0.win 1).blk t).view.emb (ix2 kk q)) = V c main_arg3 (ix2 kk q)
    refine congrArg _ ?_
    funext a; apply Fin.ext
    match a with
    | ⟨0, _⟩ => show win0_1.index t (0 : Fin 2) * 128 + 1 * kk.val = kk.val; omega
    | ⟨1, _⟩ => show win0_1.index t (1 : Fin 2) * 64 + 1 * q.val = q.val; omega

/-- An index of the output array is in point t's block iff each coordinate is in the block's range on its axis. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v59).slice (win0_2.rect t)).set ↔ _
  rw [View.set_slice_whole, Rect.mem_set_unit]
  exact Iff.rfl

/-- Every entry of the output array is in the block of the point its row falls in. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 10000 := ⟨⟨(i 0).val / 10000, by rw [nPoints]; omega⟩, rfl⟩
  obtain ⟨e0, e1, e2, e3, e4, e5⟩ := idx t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region. -/
theorem final (c : Dev nD) : (dat0 V c).arrAt 2 cfg0.N = Cert.Gcn.mm1 (F := Ideal) (V c main_arg0) (V c main_arg3) :=
  (dat0 V c).arrAt_eq_of_cover 2 _ (fun t _ => flushed_eq V c t) cover

end Cert.KernelIdeal.Blocks0

end
-- ==== Proof.Blocks1.lean ====
/-
  The first layer's bias and rectifier, block by block.

  The region's grid has five points; point t stages rows 10000·t … 10000·t + 9999 of the first operand and the whole of the
  second, and flushes its 10000 × 64 result block to the same rows of the output array.  The five blocks tile the
  50000 rows, so after the region the output array holds, at every entry, the maximum with zero of the aggregated features plus the bias row.
-/
import proofs.«139161_j17952963297475_1_alg».proof.Proof.Gen.KernelIdeal.Frame
import proofs.«139161_j17952963297475_1_alg».proof.Proof.Payloads

set_option maxRecDepth 16384

noncomputable section

namespace Cert.KernelIdeal.Blocks1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- The index maps over the five points: the row-blocked windows follow the point, the whole-operand window stays. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem nPoints : cfg1.N = 5 := N_1

/-- What point t flushes is block t of the whole-matrix function of the arrays the region finds. -/
theorem flushed_eq (c : Dev nD) (t : Fin cfg1.N) :
    (dat1 V c).flushed 2 t = ((cfg1.win 2).blk t).view.read (Elt Ideal) (Cert.Gcn.relu (F := Ideal) (Cert.Gcn.addRow (F := Ideal) (V c main_v72) (V c main_v73))) := by
  show (cfg1.win 2).cut (grid1.coords t) ((dat1 V c).after 2 t) = _
  rw [after1_2]
  unfold out1_2
  rw [View.canon_unit_zero zeroOff]
  simp only [View.ld_unit_zero (S := S10000x64) zeroOff, View.ld_unit_zero (S := S1x64) zeroOff]
  obtain ⟨e0, e1, e2, e3, e4, e5⟩ := idx t
  have ht : t.val < 5 := lt_of_lt_of_eq t.isLt nPoints
  refine funext fun (j : S10000x64.Idx) => ?_
  obtain ⟨p, q, rfl⟩ : ∃ (p : Fin 10000) (q : Fin 64), j = ix2 p q := ⟨j 0, j 1, eq_ix2 j⟩
  have hP : t.val * 10000 + p.val < 50000 := by have := p.isLt; omega
  have hemb : ((cfg1.win 2).blk t).view.emb (ix2 p q) = ix2 (⟨t.val * 10000 + p.val, hP⟩ : Fin 50000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  show k1_pay1 (iblk1 V c 0 t) (iblk1 V c 1 t) (ix2 p q) = Cert.Gcn.relu (F := Ideal) (Cert.Gcn.addRow (F := Ideal) (V c main_v72) (V c main_v73)) (((cfg1.win 2).blk t).view.emb (ix2 p q))
  rw [hemb]
  refine Cert.KernelIdeal.Payloads.biasRelu_entry _ _ (iblk1 V c 0 t) (iblk1 V c 1 t) p q ⟨t.val * 10000 + p.val, hP⟩ ?_ ?_
  · show V c main_v72 (((cfg1.win 0).blk t).view.emb (ix2 p q)) = V c main_v72 (ix2 (⟨t.val * 10000 + p.val, hP⟩ : Fin 50000) q)
    refine congrArg _ ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * q.val = q.val; omega
  · show V c main_v73 (((cfg1.win 1).blk t).view.emb (ix2 0 q)) = V c main_v73 (ix2 0 q)
    refine congrArg _ ?_
    funext a; apply Fin.ext
    match a with
    | ⟨0, _⟩ => show win1_1.index t (0 : Fin 2) * 1 + 1 * 0 = 0; omega
    | ⟨1, _⟩ => show win1_1.index t (1 : Fin 2) * 64 + 1 * q.val = q.val; omega

/-- An index of the output array is in point t's block iff each coordinate is in the block's range on its axis. -/
theorem mem_blk (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v74).slice (win1_2.rect t)).set ↔ _
  rw [View.set_slice_whole, Rect.mem_set_unit]
  exact Iff.rfl

/-- Every entry of the output array is in the block of the point its row falls in. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ : ∃ t : Fin cfg1.N, t.val = (i 0).val / 10000 := ⟨⟨(i 0).val / 10000, by rw [nPoints]; omega⟩, rfl⟩
  obtain ⟨e0, e1, e2, e3, e4, e5⟩ := idx t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region. -/
theorem final (c : Dev nD) : (dat1 V c).arrAt 2 cfg1.N = Cert.Gcn.relu (F := Ideal) (Cert.Gcn.addRow (F := Ideal) (V c main_v72) (V c main_v73)) :=
  (dat1 V c).arrAt_eq_of_cover 2 _ (fun t _ => flushed_eq V c t) cover

end Cert.KernelIdeal.Blocks1

end
-- ==== Proof.Blocks2.lean ====
/-
  The second layer's dense transform, block by block, is the whole product.

  The region's grid has five points; point t stages rows 10000·t … 10000·t + 9999 of the first operand and the whole of the
  second, and flushes its 10000 × 64 result block to the same rows of the output array.  The five blocks tile the
  50000 rows, so after the region the output array holds, at every entry, the product of the first layer's output with the second weight matrix.
-/
import proofs.«139161_j17952963297475_1_alg».proof.Proof.Gen.KernelIdeal.Frame
import proofs.«139161_j17952963297475_1_alg».proof.Proof.Payloads

set_option maxRecDepth 16384

noncomputable section

namespace Cert.KernelIdeal.Blocks2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- The index maps over the five points: the row-blocked windows follow the point, the whole-operand window stays. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem nPoints : cfg2.N = 5 := N_2

/-- What point t flushes is block t of the whole-matrix function of the arrays the region finds. -/
theorem flushed_eq (c : Dev nD) (t : Fin cfg2.N) :
    (dat2 V c).flushed 2 t = ((cfg2.win 2).blk t).view.read (Elt Ideal) (Cert.Gcn.mm2 (F := Ideal) (V c main_v74) (V c main_arg5)) := by
  show (cfg2.win 2).cut (grid2.coords t) ((dat2 V c).after 2 t) = _
  rw [after2_2]
  unfold out2_2
  rw [View.canon_unit_zero zeroOff]
  simp only [View.ld_unit_zero (S := S10000x64) zeroOff, View.ld_unit_zero (S := S64x64) zeroOff]
  obtain ⟨e0, e1, e2, e3, e4, e5⟩ := idx t
  have ht : t.val < 5 := lt_of_lt_of_eq t.isLt nPoints
  refine funext fun (j : S10000x64.Idx) => ?_
  obtain ⟨p, q, rfl⟩ : ∃ (p : Fin 10000) (q : Fin 64), j = ix2 p q := ⟨j 0, j 1, eq_ix2 j⟩
  have hP : t.val * 10000 + p.val < 50000 := by have := p.isLt; omega
  have hemb : ((cfg2.win 2).blk t).view.emb (ix2 p q) = ix2 (⟨t.val * 10000 + p.val, hP⟩ : Fin 50000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  show k2_pay1 (iblk2 V c 0 t) (iblk2 V c 1 t) (ix2 p q) = Cert.Gcn.mm2 (F := Ideal) (V c main_v74) (V c main_arg5) (((cfg2.win 2).blk t).view.emb (ix2 p q))
  rw [hemb]
  refine Cert.KernelIdeal.Payloads.mm2_entry _ _ (iblk2 V c 0 t) (iblk2 V c 1 t) p q ⟨t.val * 10000 + p.val, hP⟩ (fun kk => ?_) (fun kk => ?_)
  · show V c main_v74 (((cfg2.win 0).blk t).view.emb (ix2 p kk)) = V c main_v74 (ix2 (⟨t.val * 10000 + p.val, hP⟩ : Fin 50000) kk)
    refine congrArg _ ?_
    funext a; apply Fin.ext
    match a with
    | ⟨0, _⟩ => show win2_0.index t (0 : Fin 2) * 10000 + 1 * p.val = t.val * 10000 + p.val; omega
    | ⟨1, _⟩ => show win2_0.index t (1 : Fin 2) * 64 + 1 * kk.val = kk.val; omega
  · show V c main_arg5 (((cfg2.win 1).blk t).view.emb (ix2 kk q)) = V c main_arg5 (ix2 kk q)
    refine congrArg _ ?_
    funext a; apply Fin.ext
    match a with
    | ⟨0, _⟩ => show win2_1.index t (0 : Fin 2) * 64 + 1 * kk.val = kk.val; omega
    | ⟨1, _⟩ => show win2_1.index t (1 : Fin 2) * 64 + 1 * q.val = q.val; omega

/-- An index of the output array is in point t's block iff each coordinate is in the block's range on its axis. -/
theorem mem_blk (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v75).slice (win2_2.rect t)).set ↔ _
  rw [View.set_slice_whole, Rect.mem_set_unit]
  exact Iff.rfl

/-- Every entry of the output array is in the block of the point its row falls in. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ : ∃ t : Fin cfg2.N, t.val = (i 0).val / 10000 := ⟨⟨(i 0).val / 10000, by rw [nPoints]; omega⟩, rfl⟩
  obtain ⟨e0, e1, e2, e3, e4, e5⟩ := idx t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region. -/
theorem final (c : Dev nD) : (dat2 V c).arrAt 2 cfg2.N = Cert.Gcn.mm2 (F := Ideal) (V c main_v74) (V c main_arg5) :=
  (dat2 V c).arrAt_eq_of_cover 2 _ (fun t _ => flushed_eq V c t) cover

end Cert.KernelIdeal.Blocks2

end
-- ==== Proof.Blocks3.lean ====
/-
  The second layer's bias and rectifier, block by block.

  The region's grid has five points; point t stages rows 10000·t … 10000·t + 9999 of the first operand and the whole of the
  second, and flushes its 10000 × 64 result block to the same rows of the output array.  The five blocks tile the
  50000 rows, so after the region the output array holds, at every entry, the maximum with zero of the aggregated features plus the bias row.
-/
import proofs.«139161_j17952963297475_1_alg».proof.Proof.Gen.KernelIdeal.Frame
import proofs.«139161_j17952963297475_1_alg».proof.Proof.Payloads

set_option maxRecDepth 16384

noncomputable section

namespace Cert.KernelIdeal.Blocks3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- The index maps over the five points: the row-blocked windows follow the point, the whole-operand window stays. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem nPoints : cfg3.N = 5 := N_3

/-- What point t flushes is block t of the whole-matrix function of the arrays the region finds. -/
theorem flushed_eq (c : Dev nD) (t : Fin cfg3.N) :
    (dat3 V c).flushed 2 t = ((cfg3.win 2).blk t).view.read (Elt Ideal) (Cert.Gcn.relu (F := Ideal) (Cert.Gcn.addRow (F := Ideal) (V c main_v88) (V c main_v89))) := by
  show (cfg3.win 2).cut (grid3.coords t) ((dat3 V c).after 2 t) = _
  rw [after3_2]
  unfold out3_2
  rw [View.canon_unit_zero zeroOff]
  simp only [View.ld_unit_zero (S := S10000x64) zeroOff, View.ld_unit_zero (S := S1x64) zeroOff]
  obtain ⟨e0, e1, e2, e3, e4, e5⟩ := idx t
  have ht : t.val < 5 := lt_of_lt_of_eq t.isLt nPoints
  refine funext fun (j : S10000x64.Idx) => ?_
  obtain ⟨p, q, rfl⟩ : ∃ (p : Fin 10000) (q : Fin 64), j = ix2 p q := ⟨j 0, j 1, eq_ix2 j⟩
  have hP : t.val * 10000 + p.val < 50000 := by have := p.isLt; omega
  have hemb : ((cfg3.win 2).blk t).view.emb (ix2 p q) = ix2 (⟨t.val * 10000 + p.val, hP⟩ : Fin 50000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  show k3_pay1 (iblk3 V c 0 t) (iblk3 V c 1 t) (ix2 p q) = Cert.Gcn.relu (F := Ideal) (Cert.Gcn.addRow (F := Ideal) (V c main_v88) (V c main_v89)) (((cfg3.win 2).blk t).view.emb (ix2 p q))
  rw [hemb, Cert.KernelIdeal.Payloads.k3_eq_k1]
  refine Cert.KernelIdeal.Payloads.biasRelu_entry _ _ (iblk3 V c 0 t) (iblk3 V c 1 t) p q ⟨t.val * 10000 + p.val, hP⟩ ?_ ?_
  · show V c main_v88 (((cfg3.win 0).blk t).view.emb (ix2 p q)) = V c main_v88 (ix2 (⟨t.val * 10000 + p.val, hP⟩ : Fin 50000) q)
    refine congrArg _ ?_
    funext a; apply Fin.ext
    match a with
    | ⟨0, _⟩ => show win3_0.index t (0 : Fin 2) * 10000 + 1 * p.val = t.val * 10000 + p.val; omega
    | ⟨1, _⟩ => show win3_0.index t (1 : Fin 2) * 64 + 1 * q.val = q.val; omega
  · show V c main_v89 (((cfg3.win 1).blk t).view.emb (ix2 0 q)) = V c main_v89 (ix2 0 q)
    refine congrArg _ ?_
    funext a; apply Fin.ext
    match a with
    | ⟨0, _⟩ => show win3_1.index t (0 : Fin 2) * 1 + 1 * 0 = 0; omega
    | ⟨1, _⟩ => show win3_1.index t (1 : Fin 2) * 64 + 1 * q.val = q.val; omega

/-- An index of the output array is in point t's block iff each coordinate is in the block's range on its axis. -/
theorem mem_blk (t : Fin cfg3.N) (i : S50000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v90).slice (win3_2.rect t)).set ↔ _
  rw [View.set_slice_whole, Rect.mem_set_unit]
  exact Iff.rfl

/-- Every entry of the output array is in the block of the point its row falls in. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ : ∃ t : Fin cfg3.N, t.val = (i 0).val / 10000 := ⟨⟨(i 0).val / 10000, by rw [nPoints]; omega⟩, rfl⟩
  obtain ⟨e0, e1, e2, e3, e4, e5⟩ := idx t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region. -/
theorem final (c : Dev nD) : (dat3 V c).arrAt 2 cfg3.N = Cert.Gcn.relu (F := Ideal) (Cert.Gcn.addRow (F := Ideal) (V c main_v88) (V c main_v89)) :=
  (dat3 V c).arrAt_eq_of_cover 2 _ (fun t _ => flushed_eq V c t) cover

end Cert.KernelIdeal.Blocks3

end
-- ==== Proof.Blocks4.lean ====
/-
  The third layer's dense transform, block by block, is the whole product.

  The region's grid has five points; point t stages rows 10000·t … 10000·t + 9999 of the first operand and the whole of the
  second, and flushes its 10000 × 64 result block to the same rows of the output array.  The five blocks tile the
  50000 rows, so after the region the output array holds, at every entry, the product of the second layer's output with the third weight matrix.
-/
import proofs.«139161_j17952963297475_1_alg».proof.Proof.Gen.KernelIdeal.Frame
import proofs.«139161_j17952963297475_1_alg».proof.Proof.Payloads

set_option maxRecDepth 16384

noncomputable section

namespace Cert.KernelIdeal.Blocks4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- The index maps over the five points: the row-blocked windows follow the point, the whole-operand window stays. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem nPoints : cfg4.N = 5 := N_4

/-- What point t flushes is block t of the whole-matrix function of the arrays the region finds. -/
theorem flushed_eq (c : Dev nD) (t : Fin cfg4.N) :
    (dat4 V c).flushed 2 t = ((cfg4.win 2).blk t).view.read (Elt Ideal) (Cert.Gcn.mm2 (F := Ideal) (V c main_v90) (V c main_arg7)) := by
  show (cfg4.win 2).cut (grid4.coords t) ((dat4 V c).after 2 t) = _
  rw [after4_2]
  unfold out4_2
  rw [View.canon_unit_zero zeroOff]
  simp only [View.ld_unit_zero (S := S10000x64) zeroOff, View.ld_unit_zero (S := S64x64) zeroOff]
  obtain ⟨e0, e1, e2, e3, e4, e5⟩ := idx t
  have ht : t.val < 5 := lt_of_lt_of_eq t.isLt nPoints
  refine funext fun (j : S10000x64.Idx) => ?_
  obtain ⟨p, q, rfl⟩ : ∃ (p : Fin 10000) (q : Fin 64), j = ix2 p q := ⟨j 0, j 1, eq_ix2 j⟩
  have hP : t.val * 10000 + p.val < 50000 := by have := p.isLt; omega
  have hemb : ((cfg4.win 2).blk t).view.emb (ix2 p q) = ix2 (⟨t.val * 10000 + p.val, hP⟩ : Fin 50000) q := by
    funext a; apply Fin.ext
    match a with
    | ⟨0, _⟩ => show win4_2.index t (0 : Fin 2) * 10000 + 1 * p.val = t.val * 10000 + p.val; omega
    | ⟨1, _⟩ => show win4_2.index t (1 : Fin 2) * 64 + 1 * q.val = q.val; omega
  show k4_pay1 (iblk4 V c 0 t) (iblk4 V c 1 t) (ix2 p q) = Cert.Gcn.mm2 (F := Ideal) (V c main_v90) (V c main_arg7) (((cfg4.win 2).blk t).view.emb (ix2 p q))
  rw [hemb, Cert.KernelIdeal.Payloads.k4_eq_k2]
  refine Cert.KernelIdeal.Payloads.mm2_entry _ _ (iblk4 V c 0 t) (iblk4 V c 1 t) p q ⟨t.val * 10000 + p.val, hP⟩ (fun kk => ?_) (fun kk => ?_)
  · show V c main_v90 (((cfg4.win 0).blk t).view.emb (ix2 p kk)) = V c main_v90 (ix2 (⟨t.val * 10000 + p.val, hP⟩ : Fin 50000) kk)
    refine congrArg _ ?_
    funext a; apply Fin.ext
    match a with
    | ⟨0, _⟩ => show win4_0.index t (0 : Fin 2) * 10000 + 1 * p.val = t.val * 10000 + p.val; omega
    | ⟨1, _⟩ => show win4_0.index t (1 : Fin 2) * 64 + 1 * kk.val = kk.val; omega
  · show V c main_arg7 (((cfg4.win 1).blk t).view.emb (ix2 kk q)) = V c main_arg7 (ix2 kk q)
    refine congrArg _ ?_
    funext a; apply Fin.ext
    match a with
    | ⟨0, _⟩ => show win4_1.index t (0 : Fin 2) * 64 + 1 * kk.val = kk.val; omega
    | ⟨1, _⟩ => show win4_1.index t (1 : Fin 2) * 64 + 1 * q.val = q.val; omega

/-- An index of the output array is in point t's block iff each coordinate is in the block's range on its axis. -/
theorem mem_blk (t : Fin cfg4.N) (i : S50000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v91).slice (win4_2.rect t)).set ↔ _
  rw [View.set_slice_whole, Rect.mem_set_unit]
  exact Iff.rfl

/-- Every entry of the output array is in the block of the point its row falls in. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ : ∃ t : Fin cfg4.N, t.val = (i 0).val / 10000 := ⟨⟨(i 0).val / 10000, by rw [nPoints]; omega⟩, rfl⟩
  obtain ⟨e0, e1, e2, e3, e4, e5⟩ := idx t
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The output array after the region. -/
theorem final (c : Dev nD) : (dat4 V c).arrAt 2 cfg4.N = Cert.Gcn.mm2 (F := Ideal) (V c main_v90) (V c main_arg7) :=
  (dat4 V c).arrAt_eq_of_cover 2 _ (fun t _ => flushed_eq V c t) cover

end Cert.KernelIdeal.Blocks4

end
-- ==== Proof.Blocks5.lean ====
/-
  The third layer's bias, block by block.

  The region's grid has five points; point t stages rows 10000·t … 10000·t + 9999 of the first operand and the whole of the
  second, and flushes its 10000 × 64 result block to the same rows of the output array.  The five blocks tile the
  50000 rows, so after the region the output array holds, at every entry, the aggregated features plus the bias row.
-/
import proofs.«139161_j17952963297475_1_alg».proof.Proof.Gen.KernelIdeal.Frame
import proofs.«139161_j17952963297475_1_alg».proof.Proof.Payloads

set_option maxRecDepth 16384

noncomputable section

namespace Cert.KernelIdeal.Blocks5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- The index maps over the five points: the row-blocked windows follow the point, the whole-operand window stays. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem nPoints : cfg5.N = 5 := N_5

/-- What point t flushes is block t of the whole-matrix function of the arrays the region finds. -/
theorem flushed_eq (c : Dev nD) (t : Fin cfg5.N) :
    (dat5 V c).flushed 2 t = ((cfg5.win 2).blk t).view.read (Elt Ideal) (Cert.Gcn.addRow (F := Ideal) (V c main_v104) (V c main_v105)) := by
  show (cfg5.win 2).cut (grid5.coords t) ((dat5 V c).after 2 t) = _
  rw [after5_2]
  unfold out5_2
  rw [View.canon_unit_zero zeroOff]
  simp only [View.ld_unit_zero (S := S10000x64) zeroOff, View.ld_unit_zero (S := S1x64) zeroOff]
  obtain ⟨e0, e1, e2, e3, e4, e5⟩ := idx t
  have ht : t.val < 5 := lt_of_lt_of_eq t.isLt nPoints
  refine funext fun (j : S10000x64.Idx) => ?_
  obtain ⟨p, q, rfl⟩ : ∃ (p : Fin 10000) (q : Fin 64), j = ix2 p q := ⟨j 0, j 1, eq_ix2 j⟩
  have hP : t.val * 10000 + p.val < 50000 := by have := p.isLt; omega
  have hemb : ((cfg5.win 2).blk t).view.emb (ix2 p q) = ix2 (⟨t.val * 10000 + p.val, hP⟩ : Fin 50000) q := by
    funext a; apply Fin.ext
    match a with
    | ⟨0, _⟩ => show win5_2.index t (0 : Fin 2) * 10000 + 1 * p.val = t.val * 10000 + p.val; omega
    | ⟨1, _⟩ => show win5_2.index t (1 : Fin 2) * 64 + 1 * q.val = q.val; omega
  show k5_pay1 (iblk5 V c 0 t) (iblk5 V c 1 t) (ix2 p q) = Cert.Gcn.addRow (F := Ideal) (V c main_v104) (V c main_v105) (((cfg5.win 2).blk t).view.emb (ix2 p q))
  rw [hemb]
  refine Cert.KernelIdeal.Payloads.bias_entry _ _ (iblk5 V c 0 t) (iblk5 V c 1 t) p q ⟨t.val * 10000 + p.val, hP⟩ ?_ ?_
  · show V c main_v104 (((cfg5.win 0).blk t).view.emb (ix2 p q)) = V c main_v104 (ix2 (⟨t.val * 10000 + p.val, hP⟩ : Fin 50000) q)
    refine congrArg _ ?_
    funext a; apply Fin.ext
    match a with
    | ⟨0, _⟩ => show win5_0.index t (0 : Fin 2) * 10000 + 1 * p.val = t.val * 10000 + p.val; omega
    | ⟨1, _⟩ => show win5_0.index t (1 : Fin 2) * 64 + 1 * q.val = q.val; omega
  · show V c main_v105 (((cfg5.win 1).blk t).view.emb (ix2 0 q)) = V c main_v105 (ix2 0 q)
    refine congrArg _ ?_
    funext a; apply Fin.ext
    match a with
    | ⟨0, _⟩ => show win5_1.index t (0 : Fin 2) * 1 + 1 * 0 = 0; omega
    | ⟨1, _⟩ => show win5_1.index t (1 : Fin 2) * 64 + 1 * q.val = q.val; omega

/-- An index of the output array is in point t's block iff each coordinate is in the block's range on its axis. -/
theorem mem_blk (t : Fin cfg5.N) (i : S50000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v106).slice (win5_2.rect t)).set ↔ _
  rw [View.set_slice_whole, Rect.mem_set_unit]
  exact Iff.rfl

/-- Every entry of the output array is in the block of the point its row falls in. -/
theorem cover (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ : ∃ t : Fin cfg5.N, t.val = (i 0).val / 10000 := ⟨⟨(i 0).val / 10000, by rw [nPoints]; omega⟩, rfl⟩
  obtain ⟨e0, e1, e2, e3, e4, e5⟩ := idx t
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The output array after the region. -/
theorem final (c : Dev nD) : (dat5 V c).arrAt 2 cfg5.N = Cert.Gcn.addRow (F := Ideal) (V c main_v104) (V c main_v105) :=
  (dat5 V c).arrAt_eq_of_cover 2 _ (fun t _ => flushed_eq V c t) cover

end Cert.KernelIdeal.Blocks5

end
-- ==== Proof.Chain.lean ====
/-
  The idealized kernel program's result as one function of the arguments.

  Reading the program's segments in order: the host operations before the first region compute the entries' sources,
  targets and normalised weights; each product region leaves the whole matrix product in its output array; each host
  stretch aggregates that product along the entries and lays the bias out as a row; each bias region leaves the
  aggregated features plus the bias row (rectified in the first two layers).  Buffers computed early and read late
  (sources, targets, the normalisations, the arguments) are not written in between.  Composing the segments gives the
  three-layer graph convolution of the arguments.
-/
import proofs.«139161_j17952963297475_1_alg».proof.Proof.Gen.KernelIdeal.Frame
import Idealize.ShloMosaic.PureOps.Ideal
import proofs.«139161_j17952963297475_1_alg».proof.Proof.Spec
import proofs.«139161_j17952963297475_1_alg».proof.Proof.LibCombine
import proofs.«139161_j17952963297475_1_alg».proof.Proof.Prefix
import proofs.«139161_j17952963297475_1_alg».proof.Proof.Stretch
import proofs.«139161_j17952963297475_1_alg».proof.Proof.Carry
import proofs.«139161_j17952963297475_1_alg».proof.Proof.Blocks0
import proofs.«139161_j17952963297475_1_alg».proof.Proof.Blocks1
import proofs.«139161_j17952963297475_1_alg».proof.Proof.Blocks2
import proofs.«139161_j17952963297475_1_alg».proof.Proof.Blocks3
import proofs.«139161_j17952963297475_1_alg».proof.Proof.Blocks4
import proofs.«139161_j17952963297475_1_alg».proof.Proof.Blocks5

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first layer's product. -/
theorem prod1 : W6 m ρ c (Proc.devRef .tc main_v59) = Cert.Gcn.mm1 (F := Ideal) (m ((c.tc : Thread nD τ).loc main_arg0)) (m ((c.tc : Thread nD τ).loc main_arg3)) :=
  ((W6_arr m ρ c 2).trans (Cert.KernelIdeal.Blocks0.final (V5 m ρ) c)).trans (by
    show Cert.Gcn.mm1 (F := Ideal) (W5 m ρ c (Proc.devRef .tc main_arg0)) (W5 m ρ c (Proc.devRef .tc main_arg3)) = _
    rw [Cert.KernelIdeal.Prefix.arg0_eq, Cert.KernelIdeal.Prefix.arg3_eq])

/-- The first layer's aggregation. -/
theorem aggr1 : W7 m ρ c (Proc.devRef .tc main_v72) = Cert.Gcn.aggregate (F := Ideal) (Cert.Gcn.mm1 (F := Ideal) (m ((c.tc : Thread nD τ).loc main_arg0)) (m ((c.tc : Thread nD τ).loc main_arg3))) (Cert.Gcn.srcs (m ((c.tc : Thread nD τ).loc main_arg1))) (Cert.Gcn.dsts (m ((c.tc : Thread nD τ).loc main_arg1))) (Cert.Gcn.norm (F := Ideal) (Cert.Gcn.srcs (m ((c.tc : Thread nD τ).loc main_arg1))) (Cert.Gcn.dsts (m ((c.tc : Thread nD τ).loc main_arg1))) (Cert.Gcn.weights (F := Ideal) (m ((c.tc : Thread nD τ).loc main_arg2)))) := by
  rw [Cert.KernelIdeal.Stretch.agg1, prod1, Cert.KernelIdeal.Carry.at6_v5, Cert.KernelIdeal.Carry.at6_v6, Cert.KernelIdeal.Carry.at6_v32, Cert.KernelIdeal.Prefix.srcs_eq, Cert.KernelIdeal.Prefix.dsts_eq, Cert.KernelIdeal.Prefix.normW_eq]

/-- The first bias as a row. -/
theorem bias1 : W7 m ρ c (Proc.devRef .tc main_v73) = Cert.Gcn.rowOf (F := Ideal) (m ((c.tc : Thread nD τ).loc main_arg4)) := by
  rw [Cert.KernelIdeal.Stretch.row1, Cert.KernelIdeal.Carry.at6_arg4, Cert.KernelIdeal.Prefix.arg4_eq]
  exact Cert.LibCombine.reshapeRow_eq _ _ _

/-- The first layer's output. -/
theorem out1 : W8 m ρ c (Proc.devRef .tc main_v74) = Cert.Gcn.relu (F := Ideal) (Cert.Gcn.addRow (F := Ideal) (Cert.Gcn.aggregate (F := Ideal) (Cert.Gcn.mm1 (F := Ideal) (m ((c.tc : Thread nD τ).loc main_arg0)) (m ((c.tc : Thread nD τ).loc main_arg3))) (Cert.Gcn.srcs (m ((c.tc : Thread nD τ).loc main_arg1))) (Cert.Gcn.dsts (m ((c.tc : Thread nD τ).loc main_arg1))) (Cert.Gcn.norm (F := Ideal) (Cert.Gcn.srcs (m ((c.tc : Thread nD τ).loc main_arg1))) (Cert.Gcn.dsts (m ((c.tc : Thread nD τ).loc main_arg1))) (Cert.Gcn.weights (F := Ideal) (m ((c.tc : Thread nD τ).loc main_arg2))))) (Cert.Gcn.rowOf (F := Ideal) (m ((c.tc : Thread nD τ).loc main_arg4)))) :=
  ((W8_arr m ρ c 2).trans (Cert.KernelIdeal.Blocks1.final (V7 m ρ) c)).trans (by
    show Cert.Gcn.relu (F := Ideal) (Cert.Gcn.addRow (F := Ideal) (W7 m ρ c (Proc.devRef .tc main_v72)) (W7 m ρ c (Proc.devRef .tc main_v73))) = _
    rw [aggr1, bias1])

/-- The second layer's product. -/
theorem prod2 : W9 m ρ c (Proc.devRef .tc main_v75) = Cert.Gcn.mm2 (F := Ideal) (Cert.Gcn.relu (F := Ideal) (Cert.Gcn.addRow (F := Ideal) (Cert.Gcn.aggregate (F := Ideal) (Cert.Gcn.mm1 (F := Ideal) (m ((c.tc : Thread nD τ).loc main_arg0)) (m ((c.tc : Thread nD τ).loc main_arg3))) (Cert.Gcn.srcs (m ((c.tc : Thread nD τ).loc main_arg1))) (Cert.Gcn.dsts (m ((c.tc : Thread nD τ).loc main_arg1))) (Cert.Gcn.norm (F := Ideal) (Cert.Gcn.srcs (m ((c.tc : Thread nD τ).loc main_arg1))) (Cert.Gcn.dsts (m ((c.tc : Thread nD τ).loc main_arg1))) (Cert.Gcn.weights (F := Ideal) (m ((c.tc : Thread nD τ).loc main_arg2))))) (Cert.Gcn.rowOf (F := Ideal) (m ((c.tc : Thread nD τ).loc main_arg4))))) (m ((c.tc : Thread nD τ).loc main_arg5)) :=
  ((W9_arr m ρ c 2).trans (Cert.KernelIdeal.Blocks2.final (V8 m ρ) c)).trans (by
    show Cert.Gcn.mm2 (F := Ideal) (W8 m ρ c (Proc.devRef .tc main_v74)) (W8 m ρ c (Proc.devRef .tc main_arg5)) = _
    rw [out1, Cert.KernelIdeal.Carry.at8_arg5, Cert.KernelIdeal.Prefix.arg5_eq])

/-- The second layer's aggregation. -/
theorem aggr2 : W10 m ρ c (Proc.devRef .tc main_v88) = Cert.Gcn.aggregate (F := Ideal) (Cert.Gcn.mm2 (F := Ideal) (Cert.Gcn.relu (F := Ideal) (Cert.Gcn.addRow (F := Ideal) (Cert.Gcn.aggregate (F := Ideal) (Cert.Gcn.mm1 (F := Ideal) (m ((c.tc : Thread nD τ).loc main_arg0)) (m ((c.tc : Thread nD τ).loc main_arg3))) (Cert.Gcn.srcs (m ((c.tc : Thread nD τ).loc main_arg1))) (Cert.Gcn.dsts (m ((c.tc : Thread nD τ).loc main_arg1))) (Cert.Gcn.norm (F := Ideal) (Cert.Gcn.srcs (m ((c.tc : Thread nD τ).loc main_arg1))) (Cert.Gcn.dsts (m ((c.tc : Thread nD τ).loc main_arg1))) (Cert.Gcn.weights (F := Ideal) (m ((c.tc : Thread nD τ).loc main_arg2))))) (Cert.Gcn.rowOf (F := Ideal) (m ((c.tc : Thread nD τ).loc main_arg4))))) (m ((c.tc : Thread nD τ).loc main_arg5))) (Cert.Gcn.srcs (m ((c.tc : Thread nD τ).loc main_arg1))) (Cert.Gcn.dsts (m ((c.tc : Thread nD τ).loc main_arg1))) (Cert.Gcn.norm (F := Ideal) (Cert.Gcn.srcs (m ((c.tc : Thread nD τ).loc main_arg1))) (Cert.Gcn.dsts (m ((c.tc : Thread nD τ).loc main_arg1))) (Cert.Gcn.weights (F := Ideal) (m ((c.tc : Thread nD τ).loc main_arg2)))) := by
  rw [Cert.KernelIdeal.Stretch.agg2, prod2, Cert.KernelIdeal.Carry.at9_v5, Cert.KernelIdeal.Carry.at9_v6, Cert.KernelIdeal.Carry.at9_v32, Cert.KernelIdeal.Prefix.srcs_eq, Cert.KernelIdeal.Prefix.dsts_eq, Cert.KernelIdeal.Prefix.normW_eq]

/-- The second bias as a row. -/
theorem bias2 : W10 m ρ c (Proc.devRef .tc main_v89) = Cert.Gcn.rowOf (F := Ideal) (m ((c.tc : Thread nD τ).loc main_arg6)) := by
  rw [Cert.KernelIdeal.Stretch.row2, Cert.KernelIdeal.Carry.at9_arg6, Cert.KernelIdeal.Prefix.arg6_eq]
  exact Cert.LibCombine.reshapeRow_eq _ _ _

/-- The second layer's output. -/
theorem out2 : W11 m ρ c (Proc.devRef .tc main_v90) = Cert.Gcn.relu (F := Ideal) (Cert.Gcn.addRow (F := Ideal) (Cert.Gcn.aggregate (F := Ideal) (Cert.Gcn.mm2 (F := Ideal) (Cert.Gcn.relu (F := Ideal) (Cert.Gcn.addRow (F := Ideal) (Cert.Gcn.aggregate (F := Ideal) (Cert.Gcn.mm1 (F := Ideal) (m ((c.tc : Thread nD τ).loc main_arg0)) (m ((c.tc : Thread nD τ).loc main_arg3))) (Cert.Gcn.srcs (m ((c.tc : Thread nD τ).loc main_arg1))) (Cert.Gcn.dsts (m ((c.tc : Thread nD τ).loc main_arg1))) (Cert.Gcn.norm (F := Ideal) (Cert.Gcn.srcs (m ((c.tc : Thread nD τ).loc main_arg1))) (Cert.Gcn.dsts (m ((c.tc : Thread nD τ).loc main_arg1))) (Cert.Gcn.weights (F := Ideal) (m ((c.tc : Thread nD τ).loc main_arg2))))) (Cert.Gcn.rowOf (F := Ideal) (m ((c.tc : Thread nD τ).loc main_arg4))))) (m ((c.tc : Thread nD τ).loc main_arg5))) (Cert.Gcn.srcs (m ((c.tc : Thread nD τ).loc main_arg1))) (Cert.Gcn.dsts (m ((c.tc : Thread nD τ).loc main_arg1))) (Cert.Gcn.norm (F := Ideal) (Cert.Gcn.srcs (m ((c.tc : Thread nD τ).loc main_arg1))) (Cert.Gcn.dsts (m ((c.tc : Thread nD τ).loc main_arg1))) (Cert.Gcn.weights (F := Ideal) (m ((c.tc : Thread nD τ).loc main_arg2))))) (Cert.Gcn.rowOf (F := Ideal) (m ((c.tc : Thread nD τ).loc main_arg6)))) :=
  ((W11_arr m ρ c 2).trans (Cert.KernelIdeal.Blocks3.final (V10 m ρ) c)).trans (by
    show Cert.Gcn.relu (F := Ideal) (Cert.Gcn.addRow (F := Ideal) (W10 m ρ c (Proc.devRef .tc main_v88)) (W10 m ρ c (Proc.devRef .tc main_v89))) = _
    rw [aggr2, bias2])

/-- The third layer's product. -/
theorem prod3 : W12 m ρ c (Proc.devRef .tc main_v91) = Cert.Gcn.mm2 (F := Ideal) (Cert.Gcn.relu (F := Ideal) (Cert.Gcn.addRow (F := Ideal) (Cert.Gcn.aggregate (F := Ideal) (Cert.Gcn.mm2 (F := Ideal) (Cert.Gcn.relu (F := Ideal) (Cert.Gcn.addRow (F := Ideal) (Cert.Gcn.aggregate (F := Ideal) (Cert.Gcn.mm1 (F := Ideal) (m ((c.tc : Thread nD τ).loc main_arg0)) (m ((c.tc : Thread nD τ).loc main_arg3))) (Cert.Gcn.srcs (m ((c.tc : Thread nD τ).loc main_arg1))) (Cert.Gcn.dsts (m ((c.tc : Thread nD τ).loc main_arg1))) (Cert.Gcn.norm (F := Ideal) (Cert.Gcn.srcs (m ((c.tc : Thread nD τ).loc main_arg1))) (Cert.Gcn.dsts (m ((c.tc : Thread nD τ).loc main_arg1))) (Cert.Gcn.weights (F := Ideal) (m ((c.tc : Thread nD τ).loc main_arg2))))) (Cert.Gcn.rowOf (F := Ideal) (m ((c.tc : Thread nD τ).loc main_arg4))))) (m ((c.tc : Thread nD τ).loc main_arg5))) (Cert.Gcn.srcs (m ((c.tc : Thread nD τ).loc main_arg1))) (Cert.Gcn.dsts (m ((c.tc : Thread nD τ).loc main_arg1))) (Cert.Gcn.norm (F := Ideal) (Cert.Gcn.srcs (m ((c.tc : Thread nD τ).loc main_arg1))) (Cert.Gcn.dsts (m ((c.tc : Thread nD τ).loc main_arg1))) (Cert.Gcn.weights (F := Ideal) (m ((c.tc : Thread nD τ).loc main_arg2))))) (Cert.Gcn.rowOf (F := Ideal) (m ((c.tc : Thread nD τ).loc main_arg6))))) (m ((c.tc : Thread nD τ).loc main_arg7)) :=
  ((W12_arr m ρ c 2).trans (Cert.KernelIdeal.Blocks4.final (V11 m ρ) c)).trans (by
    show Cert.Gcn.mm2 (F := Ideal) (W11 m ρ c (Proc.devRef .tc main_v90)) (W11 m ρ c (Proc.devRef .tc main_arg7)) = _
    rw [out2, Cert.KernelIdeal.Carry.at11_arg7, Cert.KernelIdeal.Prefix.arg7_eq])

/-- The third layer's aggregation, with the unit-weight normalisation. -/
theorem aggr3 : W13 m ρ c (Proc.devRef .tc main_v104) = Cert.Gcn.aggregate (F := Ideal) (Cert.Gcn.mm2 (F := Ideal) (Cert.Gcn.relu (F := Ideal) (Cert.Gcn.addRow (F := Ideal) (Cert.Gcn.aggregate (F := Ideal) (Cert.Gcn.mm2 (F := Ideal) (Cert.Gcn.relu (F := Ideal) (Cert.Gcn.addRow (F := Ideal) (Cert.Gcn.aggregate (F := Ideal) (Cert.Gcn.mm1 (F := Ideal) (m ((c.tc : Thread nD τ).loc main_arg0)) (m ((c.tc : Thread nD τ).loc main_arg3))) (Cert.Gcn.srcs (m ((c.tc : Thread nD τ).loc main_arg1))) (Cert.Gcn.dsts (m ((c.tc : Thread nD τ).loc main_arg1))) (Cert.Gcn.norm (F := Ideal) (Cert.Gcn.srcs (m ((c.tc : Thread nD τ).loc main_arg1))) (Cert.Gcn.dsts (m ((c.tc : Thread nD τ).loc main_arg1))) (Cert.Gcn.weights (F := Ideal) (m ((c.tc : Thread nD τ).loc main_arg2))))) (Cert.Gcn.rowOf (F := Ideal) (m ((c.tc : Thread nD τ).loc main_arg4))))) (m ((c.tc : Thread nD τ).loc main_arg5))) (Cert.Gcn.srcs (m ((c.tc : Thread nD τ).loc main_arg1))) (Cert.Gcn.dsts (m ((c.tc : Thread nD τ).loc main_arg1))) (Cert.Gcn.norm (F := Ideal) (Cert.Gcn.srcs (m ((c.tc : Thread nD τ).loc main_arg1))) (Cert.Gcn.dsts (m ((c.tc : Thread nD τ).loc main_arg1))) (Cert.Gcn.weights (F := Ideal) (m ((c.tc : Thread nD τ).loc main_arg2))))) (Cert.Gcn.rowOf (F := Ideal) (m ((c.tc : Thread nD τ).loc main_arg6))))) (m ((c.tc : Thread nD τ).loc main_arg7))) (Cert.Gcn.srcs (m ((c.tc : Thread nD τ).loc main_arg1))) (Cert.Gcn.dsts (m ((c.tc : Thread nD τ).loc main_arg1))) (Cert.Gcn.norm (F := Ideal) (Cert.Gcn.srcs (m ((c.tc : Thread nD τ).loc main_arg1))) (Cert.Gcn.dsts (m ((c.tc : Thread nD τ).loc main_arg1))) (Cert.Gcn.unitWeights (F := Ideal))) := by
  rw [Cert.KernelIdeal.Stretch.agg3, prod3, Cert.KernelIdeal.Carry.at12_v5, Cert.KernelIdeal.Carry.at12_v6, Cert.KernelIdeal.Carry.at12_v58, Cert.KernelIdeal.Prefix.srcs_eq, Cert.KernelIdeal.Prefix.dsts_eq, Cert.KernelIdeal.Prefix.norm1_eq]

/-- The third bias as a row. -/
theorem bias3 : W13 m ρ c (Proc.devRef .tc main_v105) = Cert.Gcn.rowOf (F := Ideal) (m ((c.tc : Thread nD τ).loc main_arg8)) := by
  rw [Cert.KernelIdeal.Stretch.row3, Cert.KernelIdeal.Carry.at12_arg8, Cert.KernelIdeal.Prefix.arg8_eq]
  exact Cert.LibCombine.reshapeRow_eq _ _ _

/-- THE RESULT: the program's result buffer ends holding the network of the arguments. -/
theorem result_eq : W14 m ρ c (Proc.devRef .tc main_v106)
    = Cert.Gcn.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  ((W14_arr m ρ c 2).trans (Cert.KernelIdeal.Blocks5.final (V13 m ρ) c)).trans (by
    show Cert.Gcn.addRow (F := Ideal) (W13 m ρ c (Proc.devRef .tc main_v104)) (W13 m ρ c (Proc.devRef .tc main_v105)) = _
    rw [aggr3, bias3]
    rfl)

end Cert.KernelIdeal.Chain

end
-- ==== Proof.lean ====
/-
  A three-layer graph convolution: the kernel program against the reference, on the extended reals.

  Both programs compute, from node features x, an edge list with weights, three weight matrices and three bias vectors,
    h1 = max(Agg_w(x · W1) + b1, 0),   h2 = max(Agg_w(h1 · W2) + b2, 0),   out = Agg_1(h2 · W3) + b3,
  where Agg_n(h)[t] = Σ over entries (s, t) of n(s, t) · h[s], the entries being the edges and every node's self-loop, and
  n the symmetric normalisation dinv(s) · w · dinv(t) (Agg_w with the given edge weights, Agg_1 with unit weights).
  The kernel program computes each product h · W and each bias addition in a pipelined region, five blocks of 10000 rows,
  the product's operands narrowed to bf16; the reference computes them as whole-array host operations.  On the extended
  reals narrowing changes nothing and a block of rows of a product is the product of the block of rows, so each region
  leaves in its output array exactly what the reference's whole-array operation yields; the host operations between the
  regions (gather, scale, scatter-add, the normalisation) are the same operations in both programs.  No algebraic law
  beyond reading sums term by term is used, so the finiteness of the inputs is not needed.
  The kernel's idealization rewrote no operation, so there is nothing to preserve beyond the program's own text.
-/
import proofs.«139161_j17952963297475_1_alg».proof.Defs
import proofs.«139161_j17952963297475_1_alg».proof.Proof.Gen.Kernel
import proofs.«139161_j17952963297475_1_alg».proof.Proof.Gen.Kernel.Skeleton
import proofs.«139161_j17952963297475_1_alg».proof.Proof.Gen.Kernel.Launch
import proofs.«139161_j17952963297475_1_alg».proof.Proof.Gen.Kernel.Points
import proofs.«139161_j17952963297475_1_alg».proof.Proof.Gen.Kernel.Frame
import proofs.«139161_j17952963297475_1_alg».proof.Proof.Gen.KernelIdeal
import proofs.«139161_j17952963297475_1_alg».proof.Proof.Gen.KernelIdeal.Skeleton
import proofs.«139161_j17952963297475_1_alg».proof.Proof.Gen.KernelIdeal.Launch
import proofs.«139161_j17952963297475_1_alg».proof.Proof.Gen.KernelIdeal.Points
import proofs.«139161_j17952963297475_1_alg».proof.Proof.Gen.KernelIdeal.Frame
import proofs.«139161_j17952963297475_1_alg».proof.Proof.Gen.ReferenceIdeal
import proofs.«139161_j17952963297475_1_alg».proof.Proof.Gen.Pre_finite_inputs
import proofs.«139161_j17952963297475_1_alg».proof.Proof.Spec
import proofs.«139161_j17952963297475_1_alg».proof.Proof.KernelRun
import proofs.«139161_j17952963297475_1_alg».proof.Proof.RefRun
import proofs.«139161_j17952963297475_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

/-- The kernel program's run: its result buffer ends at the network of the arguments, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v106) = Cert.Gcn.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run (Cert.KernelIdeal.defs (F := Ideal)) _ _).mono (fun r h c => ⟨(h c).1.trans (Cert.KernelIdeal.Chain.result_eq m ρ c), (h c).2⟩)
    (Cert.KernelIdeal.KRun.run_result (F := Ideal) m ρ)

/-- The reference program's composed term is the network of its arguments: the same operations, in the same order. -/
theorem reference_eq (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v144 (F := Ideal) m' c = Cert.Gcn.out (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
  unfold Cert.ReferenceIdeal.ValueP.res_main_v144
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run (Cert.ReferenceIdeal.defs (F := Ideal)) _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨_, kernel_run m ρ, ?_⟩
  refine (θ_run (Cert.ReferenceIdeal.defs (F := Ideal)) _ _).mono (fun r h c => ⟨(h c).1.trans ?_, (h c).2⟩)
    (Cert.ReferenceIdeal.ValueP.run (F := Ideal) m' ρ')
  obtain ⟨a0, a1, a2, a3, a4, a5, a6, a7, a8⟩ := hagree c
  rw [reference_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
